-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x26 : S_.BroadcastsInDim S32x26 (![] : Fin 0 → Fin S32x26.rank)
  reducesTo_S32x26_S_d0_1 : S32x26.ReducesTo [0, 1] S_
  bcast_S_S26 : S_.BroadcastsInDim S26 (![] : Fin 0 → Fin S26.rank)
  reducesTo_S26_S_d0 : S26.ReducesTo [0] S_

variable [Facts]

def fn_part4 {F : FTy → Type} [FloatOps F] (main_arg16 : FVec F S32x26 .f32) (main_arg17 : FVec F S26 .f32) (main_v63 : IVec S_ 1) (main_v67 : IVec S_ 1) : IVec S_ 1 :=
  let main_v68 : IVec S_ 1 := andi main_v63 main_v67
  let main_v69 : FVec F S32x26 .f32 := Host.absf main_arg16
  let main_cst_26 : FVec F S_ .f32 := constant S_ .f32 0x7F800000#32
  let main_v70 : FVec F S32x26 .f32 := broadcastInDim S32x26 ![] bcast_S_S32x26 main_cst_26
  let main_v71 : IVec S32x26 1 := cmpf .olt main_v69 main_v70
  let main_c_27 : IVec S_ 1 := constantI S_ 1 1#1
  let main_v72 : IVec S_ 1 := (fun x v => Host.reduce IntOp.andi x v reducesTo_S32x26_S_d0_1 h_S_) main_v71 main_c_27
  let main_v73 : IVec S_ 1 := andi main_v68 main_v72
  let main_v74 : FVec F S26 .f32 := Host.absf main_arg17
  let main_cst_28 : FVec F S_ .f32 := constant S_ .f32 0x7F800000#32
  let main_v75 : FVec F S26 .f32 := broadcastInDim S26 ![] bcast_S_S26 main_cst_28
  let main_v76 : IVec S26 1 := cmpf .olt main_v74 main_v75
  let main_c_29 : IVec S_ 1 := constantI S_ 1 1#1
  let main_v77 : IVec S_ 1 := (fun x v => Host.reduce IntOp.andi x v reducesTo_S26_S_d0 h_S_) main_v76 main_c_29
  let main_v78 : IVec S_ 1 := andi main_v73 main_v77
  main_v78

def fn_part3 {F : FTy → Type} [FloatOps F] (main_arg13 : FVec F S64 .f32) (main_arg14 : FVec F S64x32 .f32) (main_arg15 : FVec F S32 .f32) (main_arg16 : FVec F S32x26 .f32) (main_arg17 : FVec F S26 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_arg16 main_arg17 main_v48 main_v49 main_v50

def fn_part1 {F : FTy → Type} [FloatOps F] (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : FVec F S100000x128 .f32) (main_arg2 : IVec S800000 32) (main_arg3 : IVec S800000 32) (main_arg4 : FVec F S256x128 .f32) (main_arg5 : FVec F S128 .f32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x64 .f32) (main_arg13 : FVec F S64 .f32) (main_arg14 : FVec F S64x32 .f32) (main_arg15 : FVec F S32 .f32) (main_arg16 : FVec F S32x26 .f32) (main_arg17 : FVec F S26 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩
abbrev S800000x1 : Shape := ⟨2, ![800000, 1]⟩
abbrev S800000x128 : Shape := ⟨2, ![800000, 128]⟩
abbrev S800000x26 : Shape := ⟨2, ![800000, 26]⟩
abbrev S3200x128 : Shape := ⟨2, ![3200, 128]⟩
abbrev S3200x26 : Shape := ⟨2, ![3200, 26]⟩
abbrev S128x128 : Shape := ⟨2, ![128, 128]⟩
abbrev S1x128 : Shape := ⟨2, ![1, 128]⟩
abbrev S3200 : Shape := ⟨1, ![3200]⟩
abbrev S3200x1 : Shape := ⟨2, ![3200, 1]⟩
abbrev S3200x64 : Shape := ⟨2, ![3200, 64]⟩
abbrev S1x64 : Shape := ⟨2, ![1, 64]⟩
abbrev S3200x32 : Shape := ⟨2, ![3200, 32]⟩
abbrev S1x32 : Shape := ⟨2, ![1, 32]⟩
abbrev S1x26 : Shape := ⟨2, ![1, 26]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x26, .f32⟩
  | .hbm, ⟨17, _⟩ => ⟨S26, .f32⟩
  | .hbm, ⟨18, _⟩ => ⟨S100000x128, .bf16⟩
  | .hbm, ⟨19, _⟩ => ⟨S100000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S256x128, .bf16⟩
  | .hbm, ⟨57, _⟩ => ⟨S256x128, .bf16⟩
  | .hbm, ⟨58, _⟩ => ⟨S256x128, .bf16⟩
  | .hbm, ⟨59, _⟩ => ⟨S256x128, .bf16⟩
  | .hbm, ⟨60, _⟩ => ⟨S128x64, .bf16⟩
  | .hbm, ⟨61, _⟩ => ⟨S64x32, .bf16⟩
  | .hbm, ⟨62, _⟩ => ⟨S32x26, .bf16⟩
  | .hbm, ⟨63, _⟩ => ⟨S800000x26, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x128, .bf16⟩
  | .local _ .vmem, ⟨5, _⟩ => ⟨S3200x128, .bf16⟩
  | .local _ .vmem, ⟨6, _⟩ => ⟨S3200x128, .bf16⟩
  | .local _ .vmem, ⟨7, _⟩ => ⟨S3200x128, .bf16⟩
  | .local _ .vmem, ⟨8, _⟩ => ⟨S256x128, .bf16⟩
  | .local _ .vmem, ⟨9, _⟩ => ⟨S128, .f32⟩
  | .local _ .vmem, ⟨10, _⟩ => ⟨S256x128, .bf16⟩
  | .local _ .vmem, ⟨11, _⟩ => ⟨S128, .f32⟩
  | .local _ .vmem, ⟨12, _⟩ => ⟨S256x128, .bf16⟩
  | .local _ .vmem, ⟨13, _⟩ => ⟨S128, .f32⟩
  | .local _ .vmem, ⟨14, _⟩ => ⟨S256x128, .bf16⟩
  | .local _ .vmem, ⟨15, _⟩ => ⟨S128, .f32⟩
  | .local _ .vmem, ⟨16, _⟩ => ⟨S128x64, .bf16⟩
  | .local _ .vmem, ⟨17, _⟩ => ⟨S64, .f32⟩
  | .local _ .vmem, ⟨18, _⟩ => ⟨S64x32, .bf16⟩
  | .local _ .vmem, ⟨19, _⟩ => ⟨S32, .f32⟩
  | .local _ .vmem, ⟨20, _⟩ => ⟨S32x26, .bf16⟩
  | .local _ .vmem, ⟨21, _⟩ => ⟨S26, .f32⟩
  | .local _ .vmem, ⟨22, _⟩ => ⟨S3200x26, .f32⟩
  | .local _ .vmem, ⟨23, _⟩ => ⟨S3200x26, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x26 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S26 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S3200x26 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S3200x64 : S1x64.Broadcasts S3200x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S3200x32 : S1x32.Broadcasts S3200x32
  inb_S32x26_S32x26_0_0 : ∀ a, (![0, 0] : Fin 2 → Nat) a + S32x26.size a ≤ S32x26.size a
  h_S32x26 : 0 < S32x26.numel
  shapeCasts_S32x26_S32x26 : S32x26.ShapeCasts S32x26
  inb_S26_S26_0 : ∀ a, (![0] : Fin 1 → Nat) a + S26.size a ≤ S26.size a
  h_S26 : 0 < S26.numel
  shapeCasts_S26_S1x26 : S26.ShapeCasts S1x26
  broadcasts_S1x26_S3200x26 : S1x26.Broadcasts S3200x26
  inb_S3200x26_S3200x26_0_0 : ∀ a, (![0, 0] : Fin 2 → Nat) a + S3200x26.size a ≤ S3200x26.size a
  h_S3200x26 : 0 < S3200x26.numel
  gather_S100000x128_S800000x1_S800000x128_1_0_n_n_0_1_1128_wf : GatherDims.WF S100000x128 S800000x1 S800000x128 [1] [0] [] [0] [] 1 ![1, 128]
  dot_S3200x128_S128x128_S3200x128_1_0_0_1_n_n_wf : DotDims.WF S3200x128 S128x128 S3200x128 [1] [0] [0] [1] [] []
  dot_S3200x128_S128x64_S3200x64_1_0_0_1_n_n_wf : DotDims.WF S3200x128 S128x64 S3200x64 [1] [0] [0] [1] [] []
  dot_S3200x64_S64x32_S3200x32_1_0_0_1_n_n_wf : DotDims.WF S3200x64 S64x32 S3200x32 [1] [0] [0] [1] [] []
  dot_S3200x32_S32x26_S3200x26_1_0_0_1_n_n_wf : DotDims.WF S3200x32 S32x26 S3200x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S800000x128.size a
  hwx0_2 : ∀ i : grid0.Coords, EltTy.bits .bf16 = 32 ∨ (Rect.block (s := S800000x128) S3200x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S800000x128.size a
  hwx0_3 : ∀ i : grid0.Coords, EltTy.bits .bf16 = 32 ∨ (Rect.block (s := S800000x128) S3200x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .bf16 = 32 ∨ (Rect.block (s := S256x128) S256x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .bf16 = 32 ∨ (Rect.block (s := S128x64) S128x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x32.size a ≤ S64x32.size a
  hwx0_14 : ∀ i : grid0.Coords, EltTy.bits .bf16 = 32 ∨ (Rect.block (s := S64x32) S64x32.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x26.size a ≤ S32x26.size a
  hwx0_16 : ∀ i : grid0.Coords, EltTy.bits .bf16 = 32 ∨ (Rect.block (s := S32x26) S32x26.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S26.size a ≤ S26.size a
  hwx0_17 : ∀ i : grid0.Coords, EltTy.bits .f32 = 32 ∨ (Rect.block (s := S26) S26.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S3200x26.size a ≤ S800000x26.size a
  hwx0_18 : ∀ i : grid0.Coords, EltTy.bits .f32 = 32 ∨ (Rect.block (s := S800000x26) S3200x26.size (cc0_transform_18 i) (hinb0_18 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def dot_S3200x32_S32x26_S3200x26_1_0_0_1_n_n : DotDims S3200x32 S32x26 S3200x26 where
  lhsContracting := [1]
  rhsContracting := [0]
  lhsNonContracting := [0]
  rhsNonContracting := [1]
  lhsBatch := []
  rhsBatch := []
  wf := dot_S3200x32_S32x26_S3200x26_1_0_0_1_n_n_wf

abbrev win0_0 : Pipeline.Window sig grid0 :=
  Pipeline.Window.ofSpec (Memref.whole main_v8) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S3200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S64x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v36) S32x26.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S26.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v37) S3200x26.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x26 : Shape := ⟨2, ![32, 26]⟩
abbrev S26 : Shape := ⟨1, ![26]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S800000x64 : Shape := ⟨2, ![800000, 64]⟩
abbrev S1x64 : Shape := ⟨2, ![1, 64]⟩
abbrev S800000x32 : Shape := ⟨2, ![800000, 32]⟩
abbrev S1x32 : Shape := ⟨2, ![1, 32]⟩
abbrev S800000x26 : Shape := ⟨2, ![800000, 26]⟩
abbrev S1x26 : Shape := ⟨2, ![1, 26]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x26, .f32⟩
  | .hbm, ⟨17, _⟩ => ⟨S26, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x256, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S1x128, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S800000, .f32⟩
  | .hbm, ⟨75, _⟩ => ⟨S_, .f32⟩
  | .hbm, ⟨76, _⟩ => ⟨S800000, .f32⟩
  | .hbm, ⟨77, _⟩ => ⟨S800000, .f32⟩
  | .hbm, ⟨78, _⟩ => ⟨S800000x1, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S800000, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S800000x64, .f32⟩
  | .hbm, ⟨90, _⟩ => ⟨S1x64, .f32⟩
  | .hbm, ⟨91, _⟩ => ⟨S800000x64, .f32⟩
  | .hbm, ⟨92, _⟩ => ⟨S800000x64, .f32⟩
  | .hbm, ⟨93, _⟩ => ⟨S_, .f32⟩
  | .hbm, ⟨94, _⟩ => ⟨S800000x64, .f32⟩
  | .hbm, ⟨95, _⟩ => ⟨S800000x64, .f32⟩
  | .hbm, ⟨96, _⟩ => ⟨S800000x32, .f32⟩
  | .hbm, ⟨97, _⟩ => ⟨S1x32, .f32⟩
  | .hbm, ⟨98, _⟩ => ⟨S800000x32, .f32⟩
  | .hbm, ⟨99, _⟩ => ⟨S800000x32, .f32⟩
  | .hbm, ⟨100, _⟩ => ⟨S800000x26, .f32⟩
  | .hbm, ⟨101, _⟩ => ⟨S1x26, .f32⟩
  | .hbm, ⟨102, _⟩ => ⟨S800000x26, .f32⟩
  | .hbm, ⟨103, _⟩ => ⟨S800000x26, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call0_cst : Ref sig .tc := ⟨.hbm, 93, rfl⟩
abbrev main_call0_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S800000x1_S800000x128_0_1 : S800000x1.BroadcastsInDim S800000x128 (![0, 1] : Fin 2 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S26_S1x26_1 : S26.BroadcastsInDim S1x26 (![1] : Fin 1 → Fin S1x26.rank)
  bcast_S1x26_S800000x26_0_1 : S1x26.BroadcastsInDim S800000x26 (![0, 1] : Fin 2 → Fin S800000x26.rank)
  gather_S100000x128_S800000x1_S800000x128_1_0_n_n_0_1_1128_wf : GatherDims.WF S100000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x32_S800000x32_1_0_0_1_n_n_wf : DotDims.WF S800000x64 S64x32 S800000x32 [1] [0] [0] [1] [] []
  dot_S800000x32_S32x26_S800000x26_1_0_0_1_n_n_wf : DotDims.WF S800000x32 S32x26 S800000x26 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x26_S800000x26_1_0_0_1_n_n : DotDims S800000x32 S32x26 S800000x26 where
  lhsContracting := [1]
  rhsContracting := [0]
  lhsNonContracting := [0]
  rhsNonContracting := [1]
  lhsBatch := []
  rhsBatch := []
  wf := dot_S800000x32_S32x26_S800000x26_1_0_0_1_n_n_wf

class Facts : Prop extends Facts₀ where

variable [Facts]
-- ==== Proof.Spec.lean ====
/-
  The edge classifier as one function of its operands, one edge (one row) at a time.

  For an edge the operands are four rows of 128 entries: the two end points' node features (a, b) and the two end
  points' descriptors (d, e).  With the stacked weights W = [W_top; W_bottom] (256 rows) a pair of rows goes
  through as  x_top · W_top + x_bottom · W_bottom + bias  (pair); the attention weights are the softmax over the 128
  features of query · key, the fused feature is  value · softmax + origin, and three affine layers (the first under a
  maximum with 0) give the 26 class scores.  Everything is on the extended reals, where + and · are commutative and
  associative, which is all the one law below uses: a sum over 256 terms is the sum of its first 128 terms plus the sum
  of its last 128 terms (halves).  No finiteness is needed anywhere.
-/
import Idealize.ShloMosaic.PureOps.Ideal.Laws
import Idealize.ShloMosaic.Lib.ValueIdx

noncomputable section

open scoped BigOperators

namespace Cert.EdgeRows

open Idealize.ShloMosaic Idealize.ShloMosaic.ValueIdx

/-- The values the words of −∞ and of 0 denote; both programs write the same words, so they are never evaluated. -/
abbrev negInf : EReal := Ideal.ofBits .f32 0xFF800000#32
abbrev zero32 : EReal := Ideal.ofBits .f32 0x00000000#32

/-- A matrix and a vector of extended reals over the library's index sets. -/
abbrev Mat (a b : ℕ) := (⟨2, ![a, b]⟩ : Shape).Idx → EReal
abbrev Vec1 (a : ℕ) := (⟨1, ![a]⟩ : Shape).Idx → EReal

/-- Row k of the top half, and row k of the bottom half, of a matrix of 256 rows. -/
def top (k : Fin 128) : Fin 256 := ⟨k.val, by omega⟩
def bot (k : Fin 128) : Fin 256 := ⟨128 + k.val, by omega⟩

/-- One affine layer at column c:  Σ_k x_k · W[k, c] + β[c]. -/
def layer {K N : ℕ} (x : Fin K → EReal) (W : Mat K N) (β : Vec1 N) (c : Fin N) : EReal :=
  (∑ k : Fin K, x k * W (ix2 k c)) + β (ix1 c)

/-- A pair of rows through the two halves of a stacked weight, at column c:
    (Σ_k a_k · W[k, c] + Σ_k b_k · W[128 + k, c]) + β[c]. -/
def pair (a b : Fin 128 → EReal) (W : Mat 256 128) (β : Vec1 128) (c : Fin 128) : EReal :=
  ((∑ k : Fin 128, a k * W (ix2 (top k) c)) + ∑ k : Fin 128, b k * W (ix2 (bot k) c)) + β (ix1 c)

/-- The maximum of a row of 128 entries, folded from −∞ and taken once more against −∞. -/
def rowMax (z : Fin 128 → EReal) : EReal :=
  max negInf ((Finset.univ : Finset (Fin 128)).fold max negInf z)

/-- The softmax of a row at column c:  exp (z_c − max z) / Σ_k exp (z_k − max z). -/
def softmax (z : Fin 128 → EReal) (c : Fin 128) : EReal :=
  Ideal.div (Ideal.exp (z c - rowMax z)) (∑ k : Fin 128, Ideal.exp (z k - rowMax z))

/-- The fourteen weight and bias arrays. -/
structure Params where
  We : Mat 256 128
  be : Vec1 128
  Wq : Mat 256 128
  bq : Vec1 128
  Wk : Mat 256 128
  bk : Vec1 128
  Wv : Mat 256 128
  bv : Vec1 128
  Wc1 : Mat 128 64
  bc1 : Vec1 64
  Wc2 : Mat 64 32
  bc2 : Vec1 32
  Wc3 : Mat 32 26
  bc3 : Vec1 26

/-- query · key, feature by feature. -/
def score (P : Params) (a b d e : Fin 128 → EReal) (c : Fin 128) : EReal :=
  pair a b P.Wq P.bq c * pair d e P.Wk P.bk c

/-- value · softmax (query · key) + origin. -/
def fused (P : Params) (a b d e : Fin 128 → EReal) (c : Fin 128) : EReal :=
  pair d e P.Wv P.bv c * softmax (score P a b d e) c + pair a b P.We P.be c

/-- The classifier's three layers. -/
def hidden1 (P : Params) (a b d e : Fin 128 → EReal) (c : Fin 64) : EReal :=
  max (layer (fused P a b d e) P.Wc1 P.bc1 c) zero32
def hidden2 (P : Params) (a b d e : Fin 128 → EReal) (c : Fin 32) : EReal :=
  layer (hidden1 P a b d e) P.Wc2 P.bc2 c
def scores (P : Params) (a b d e : Fin 128 → EReal) (c : Fin 26) : EReal :=
  layer (hidden2 P a b d e) P.Wc3 P.bc3 c

/-- Row r of a matrix of 128 columns. -/
def row {n : ℕ} (A : Mat n 128) (r : Fin n) : Fin 128 → EReal := fun k => A (ix2 r k)

/-- The whole result for n edges: entry (r, c) is the class score c of the four operand rows r. -/
def result (n : ℕ) (P : Params) (A B D E : Mat n 128) : Mat n 26 := fun j =>
  scores P (row A (j 0)) (row B (j 0)) (row D (j 0)) (row E (j 0)) (j 1)

theorem result_apply (n : ℕ) (P : Params) (A B D E : Mat n 128) (r : Fin n) (c : Fin 26) :
    result n P A B D E (ix2 r c) = scores P (row A r) (row B r) (row D r) (row E r) c := rfl

/-- A sum over 256 terms is the sum of its first 128 terms plus the sum of its last 128 terms. -/
theorem halves {M : Type} [AddCommMonoid M] (h : Fin 256 → M) :
    ∑ k : Fin 256, h k = (∑ k : Fin 128, h (top k)) + ∑ k : Fin 128, h (bot k) :=
  Fin.sum_univ_add (a := 128) (b := 128) h

end Cert.EdgeRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«164240_j33741263077663_2_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelStages.lean ====
/-
  The kernel body's stages on one block of 3200 edges, each read at an entry (r, c) on the extended reals.

  A matrix product from the zero accumulator is the plain sum over the contracted axis; a bias vector made a row
  and repeated down the rows reads its entry at the column; the two halves of a stacked weight are its rows k and
  128 + k; a row maximum or row sum kept as a column and repeated across the columns reads the row's maximum or
  sum.  Composed, entry (r, c) of the body's result is the class score c of the four operand rows r.
-/
import proofs.«164240_j33741263077663_2_alg».proof.Proof.Gen.KernelIdeal.Skeleton
import proofs.«164240_j33741263077663_2_alg».proof.Proof.Spec
import proofs.«164240_j33741263077663_2_alg».proof.Proof.LibSplitContraction
import proofs.«164240_j33741263077663_2_alg».proof.Proof.LibRowReduceColumn
import proofs.«164240_j33741263077663_2_alg».proof.Proof.LibColumnBroadcast
import Idealize.ShloMosaic.Lib.ValueLayout

noncomputable section

open scoped BigOperators

namespace Cert.KernelIdeal.Stages

open Cert.KernelIdeal Cert.KernelIdeal.Gen Idealize.ShloMosaic Idealize.ShloMosaic.ValueIdx Cert.EdgeRows

/-! ## Matrix products read at an entry -/

/-- A block of 3200 rows times a [128, 128] matrix, from the zero accumulator, at entry (r, c): Σ_k lhs[r, k] · rhs[k, c]. -/
theorem mm_128_128 (lhs : FVec Ideal S3200x128 .bf16) (rhs : FVec Ideal S128x128 .bf16) (r : Fin 3200) (c : Fin 128) :
    matmul dot_S3200x128_S128x128_S3200x128_1_0_0_1_n_n none lhs rhs (constant (F := Ideal) S3200x128 .f32 0x00000000#32) (ix2 r c)
      = ∑ k : Fin 128, lhs (ix2 r k) * rhs (ix2 k c) :=
  Cert.Lib.SplitContraction.matmul_zero_at dot_S3200x128_S128x128_S3200x128_1_0_0_1_n_n rfl rfl
    (fun j q => by
      unfold DotDims.lhsIdx
      rw [dif_neg (show ¬(0 : Fin S3200x128.rank) ∈ dot_S3200x128_S128x128_S3200x128_1_0_0_1_n_n.lhsBatch by decide),
        dif_pos (show (0 : Fin S3200x128.rank) ∈ dot_S3200x128_S128x128_S3200x128_1_0_0_1_n_n.lhsNonContracting by decide)]
      rfl)
    (fun j q => dot_S3200x128_S128x128_S3200x128_1_0_0_1_n_n.lhsIdx_val_of_single rfl j q)
    (fun j q => dot_S3200x128_S128x128_S3200x128_1_0_0_1_n_n.rhsIdx_val_of_single rfl j q)
    (fun j q => by
      unfold DotDims.rhsIdx
      rw [dif_neg (show ¬(1 : Fin S128x128.rank) ∈ dot_S3200x128_S128x128_S3200x128_1_0_0_1_n_n.rhsBatch by decide),
        dif_pos (show (1 : Fin S128x128.rank) ∈ dot_S3200x128_S128x128_S3200x128_1_0_0_1_n_n.rhsNonContracting by decide)]
      rfl)
    none lhs rhs r c

/-- A block of 3200 rows times a [128, 64] matrix, from the zero accumulator, at entry (r, c): Σ_k lhs[r, k] · rhs[k, c]. -/
theorem mm_128_64 (lhs : FVec Ideal S3200x128 .bf16) (rhs : FVec Ideal S128x64 .bf16) (r : Fin 3200) (c : Fin 64) :
    matmul dot_S3200x128_S128x64_S3200x64_1_0_0_1_n_n none lhs rhs (constant (F := Ideal) S3200x64 .f32 0x00000000#32) (ix2 r c)
      = ∑ k : Fin 128, lhs (ix2 r k) * rhs (ix2 k c) :=
  Cert.Lib.SplitContraction.matmul_zero_at dot_S3200x128_S128x64_S3200x64_1_0_0_1_n_n rfl rfl
    (fun j q => by
      unfold DotDims.lhsIdx
      rw [dif_neg (show ¬(0 : Fin S3200x128.rank) ∈ dot_S3200x128_S128x64_S3200x64_1_0_0_1_n_n.lhsBatch by decide),
        dif_pos (show (0 : Fin S3200x128.rank) ∈ dot_S3200x128_S128x64_S3200x64_1_0_0_1_n_n.lhsNonContracting by decide)]
      rfl)
    (fun j q => dot_S3200x128_S128x64_S3200x64_1_0_0_1_n_n.lhsIdx_val_of_single rfl j q)
    (fun j q => dot_S3200x128_S128x64_S3200x64_1_0_0_1_n_n.rhsIdx_val_of_single rfl j q)
    (fun j q => by
      unfold DotDims.rhsIdx
      rw [dif_neg (show ¬(1 : Fin S128x64.rank) ∈ dot_S3200x128_S128x64_S3200x64_1_0_0_1_n_n.rhsBatch by decide),
        dif_pos (show (1 : Fin S128x64.rank) ∈ dot_S3200x128_S128x64_S3200x64_1_0_0_1_n_n.rhsNonContracting by decide)]
      rfl)
    none lhs rhs r c

/-- A block of 3200 rows times a [64, 32] matrix, from the zero accumulator, at entry (r, c): Σ_k lhs[r, k] · rhs[k, c]. -/
theorem mm_64_32 (lhs : FVec Ideal S3200x64 .bf16) (rhs : FVec Ideal S64x32 .bf16) (r : Fin 3200) (c : Fin 32) :
    matmul dot_S3200x64_S64x32_S3200x32_1_0_0_1_n_n none lhs rhs (constant (F := Ideal) S3200x32 .f32 0x00000000#32) (ix2 r c)
      = ∑ k : Fin 64, lhs (ix2 r k) * rhs (ix2 k c) :=
  Cert.Lib.SplitContraction.matmul_zero_at dot_S3200x64_S64x32_S3200x32_1_0_0_1_n_n rfl rfl
    (fun j q => by
      unfold DotDims.lhsIdx
      rw [dif_neg (show ¬(0 : Fin S3200x64.rank) ∈ dot_S3200x64_S64x32_S3200x32_1_0_0_1_n_n.lhsBatch by decide),
        dif_pos (show (0 : Fin S3200x64.rank) ∈ dot_S3200x64_S64x32_S3200x32_1_0_0_1_n_n.lhsNonContracting by decide)]
      rfl)
    (fun j q => dot_S3200x64_S64x32_S3200x32_1_0_0_1_n_n.lhsIdx_val_of_single rfl j q)
    (fun j q => dot_S3200x64_S64x32_S3200x32_1_0_0_1_n_n.rhsIdx_val_of_single rfl j q)
    (fun j q => by
      unfold DotDims.rhsIdx
      rw [dif_neg (show ¬(1 : Fin S64x32.rank) ∈ dot_S3200x64_S64x32_S3200x32_1_0_0_1_n_n.rhsBatch by decide),
        dif_pos (show (1 : Fin S64x32.rank) ∈ dot_S3200x64_S64x32_S3200x32_1_0_0_1_n_n.rhsNonContracting by decide)]
      rfl)
    none lhs rhs r c

/-- A block of 3200 rows times a [32, 26] matrix, from the zero accumulator, at entry (r, c): Σ_k lhs[r, k] · rhs[k, c]. -/
theorem mm_32_26 (lhs : FVec Ideal S3200x32 .bf16) (rhs : FVec Ideal S32x26 .bf16) (r : Fin 3200) (c : Fin 26) :
    matmul dot_S3200x32_S32x26_S3200x26_1_0_0_1_n_n none lhs rhs (constant (F := Ideal) S3200x26 .f32 0x00000000#32) (ix2 r c)
      = ∑ k : Fin 32, lhs (ix2 r k) * rhs (ix2 k c) :=
  Cert.Lib.SplitContraction.matmul_zero_at dot_S3200x32_S32x26_S3200x26_1_0_0_1_n_n rfl rfl
    (fun j q => by
      unfold DotDims.lhsIdx
      rw [dif_neg (show ¬(0 : Fin S3200x32.rank) ∈ dot_S3200x32_S32x26_S3200x26_1_0_0_1_n_n.lhsBatch by decide),
        dif_pos (show (0 : Fin S3200x32.rank) ∈ dot_S3200x32_S32x26_S3200x26_1_0_0_1_n_n.lhsNonContracting by decide)]
      rfl)
    (fun j q => dot_S3200x32_S32x26_S3200x26_1_0_0_1_n_n.lhsIdx_val_of_single rfl j q)
    (fun j q => dot_S3200x32_S32x26_S3200x26_1_0_0_1_n_n.rhsIdx_val_of_single rfl j q)
    (fun j q => by
      unfold DotDims.rhsIdx
      rw [dif_neg (show ¬(1 : Fin S32x26.rank) ∈ dot_S3200x32_S32x26_S3200x26_1_0_0_1_n_n.rhsBatch by decide),
        dif_pos (show (1 : Fin S32x26.rank) ∈ dot_S3200x32_S32x26_S3200x26_1_0_0_1_n_n.rhsNonContracting by decide)]
      rfl)
    none lhs rhs r c

/-! ## A bias row repeated down the rows -/

/-- A vector of b entries made one row and repeated down a rows reads, at (r, c), the vector's entry c. -/
theorem biasRow {a b : ℕ} (β : (⟨1, ![b]⟩ : Shape).Idx → EReal) (h : (⟨1, ![b]⟩ : Shape).ShapeCasts ⟨2, ![1, b]⟩)
    (h' : (⟨2, ![1, b]⟩ : Shape).Broadcasts ⟨2, ![a, b]⟩) (r : Fin a) (c : Fin b) :
    broadcastTo ⟨2, ![a, b]⟩ (shapeCast ⟨2, ![1, b]⟩ β h) h' (ix2 r c) = β (ix1 c) :=
  (broadcastTo_1b_ab_apply _ h' r c).trans (shapeCast_a_1a_apply β h 0 c)

/-! ## A pair of operand blocks through a stacked weight -/

/-- The two blocks times the top and the bottom 128 rows of the weight, added. -/
def two (x y : FVec Ideal S3200x128 .bf16) (W : FVec Ideal S256x128 .bf16) : FVec Ideal S3200x128 .f32 :=
  addf
    (matmul dot_S3200x128_S128x128_S3200x128_1_0_0_1_n_n none x
      (extractStridedSlice S128x128 ![0, 0] W slices_S256x128_o0_0_S128x128) (constant S3200x128 .f32 0x00000000#32))
    (matmul dot_S3200x128_S128x128_S3200x128_1_0_0_1_n_n none y
      (extractStridedSlice S128x128 ![128, 0] W slices_S256x128_o128_0_S128x128) (constant S3200x128 .f32 0x00000000#32))

theorem two_apply (x y : FVec Ideal S3200x128 .bf16) (W : FVec Ideal S256x128 .bf16) (r : Fin 3200) (c : Fin 128) :
    two x y W (ix2 r c)
      = (∑ k : Fin 128, x (ix2 r k) * W (ix2 (top k) c)) + ∑ k : Fin 128, y (ix2 r k) * W (ix2 (bot k) c) := by
  unfold two
  rw [addf_apply, mm_128_128, mm_128_128]
  refine congrArg₂ (· + ·) (Finset.sum_congr rfl fun k _ => congrArg (x (ix2 r k) * ·) ?_)
    (Finset.sum_congr rfl fun k _ => congrArg (y (ix2 r k) * ·) ?_)
  · exact slice2_axis0_apply 0 W slices_S256x128_o0_0_S128x128 k c (top k) (Nat.zero_add _).symm
  · exact slice2_axis0_apply 128 W slices_S256x128_o128_0_S128x128 k c (bot k) rfl

/-- The bias of 128 entries repeated down the block's rows. -/
def bias128 (β : FVec Ideal S128 .f32) : FVec Ideal S3200x128 .f32 :=
  broadcastTo S3200x128 (shapeCast S1x128 β shapeCasts_S128_S1x128) broadcasts_S1x128_S3200x128

theorem bias128_apply (β : FVec Ideal S128 .f32) (r : Fin 3200) (c : Fin 128) : bias128 β (ix2 r c) = β (ix1 c) :=
  biasRow β shapeCasts_S128_S1x128 broadcasts_S1x128_S3200x128 r c

/-- One projection of the pair of blocks: both halves' products, then the bias. -/
def proj (x y : FVec Ideal S3200x128 .bf16) (W : FVec Ideal S256x128 .bf16) (β : FVec Ideal S128 .f32) :
    FVec Ideal S3200x128 .f32 :=
  addf (two x y W) (bias128 β)

theorem proj_apply (x y : FVec Ideal S3200x128 .bf16) (W : FVec Ideal S256x128 .bf16) (β : FVec Ideal S128 .f32)
    (r : Fin 3200) (c : Fin 128) : proj x y W β (ix2 r c) = pair (row x r) (row y r) W β c := by
  unfold proj
  rw [addf_apply, two_apply, bias128_apply]
  rfl

/-! ## The softmax along a block's rows -/

/-- Each row's maximum (from −∞, once more against −∞), as a column, repeated across the 128 columns. -/
def rowMaxB (z : FVec Ideal S3200x128 .f32) : FVec Ideal S3200x128 .f32 :=
  broadcastTo S3200x128
    (shapeCast S3200x1
      (maximumf (broadcast S3200 (Scalar.ofBits (F := Ideal) .f32 0xFF800000#32))
        (multiReduction .maximumf [1] S3200 z 0xFF800000#32 reduces_S3200x128_S3200 (.inl rfl) rfl))
      shapeCasts_S3200_S3200x1)
    broadcasts_S3200x1_S3200x128

theorem rowMaxB_apply (z : FVec Ideal S3200x128 .f32) (r : Fin 3200) (c : Fin 128) :
    rowMaxB z (ix2 r c) = rowMax (fun k => z (ix2 r k)) :=
  (broadcastTo_a1_ab_apply _ broadcasts_S3200x1_S3200x128 r c).trans
    (Cert.Lib.RowReduceColumn.rowMax_column_apply z reduces_S3200x128_S3200 (.inl rfl) rfl shapeCasts_S3200_S3200x1 r 0)

/-- exp of each entry less its row's maximum. -/
def expShift (z : FVec Ideal S3200x128 .f32) : FVec Ideal S3200x128 .f32 := exp (subf z (rowMaxB z))

theorem expShift_apply (z : FVec Ideal S3200x128 .f32) (r : Fin 3200) (c : Fin 128) :
    expShift z (ix2 r c) = Ideal.exp (z (ix2 r c) - rowMax (fun k => z (ix2 r k))) := by
  show Ideal.exp (z (ix2 r c) - rowMaxB z (ix2 r c)) = _
  rw [rowMaxB_apply]

/-- Each row's sum, as a column, repeated across the 128 columns. -/
def rowSumB (e : FVec Ideal S3200x128 .f32) : FVec Ideal S3200x128 .f32 :=
  broadcastTo S3200x128
    (shapeCast S3200x1 (multiReduction .add [1] S3200 e 0x00000000#32 reduces_S3200x128_S3200 (.inl rfl) rfl)
      shapeCasts_S3200_S3200x1)
    broadcasts_S3200x1_S3200x128

theorem rowSumB_apply (e : FVec Ideal S3200x128 .f32) (r : Fin 3200) (c : Fin 128) :
    rowSumB e (ix2 r c) = ∑ k : Fin 128, e (ix2 r k) :=
  (broadcastTo_a1_ab_apply _ broadcasts_S3200x1_S3200x128 r c).trans
    (Cert.Lib.RowReduceColumn.rowSum_column_apply e reduces_S3200x128_S3200 (.inl rfl) rfl shapeCasts_S3200_S3200x1 r 0)

/-- The softmax of every row. -/
def soft (z : FVec Ideal S3200x128 .f32) : FVec Ideal S3200x128 .f32 := divf (expShift z) (rowSumB (expShift z))

theorem soft_apply (z : FVec Ideal S3200x128 .f32) (r : Fin 3200) (c : Fin 128) :
    soft z (ix2 r c) = softmax (fun k => z (ix2 r k)) c := by
  show Ideal.div (expShift z (ix2 r c)) (rowSumB (expShift z) (ix2 r c)) = _
  rw [rowSumB_apply, expShift_apply]
  exact congrArg (Ideal.div _) (Finset.sum_congr rfl fun k _ => expShift_apply z r k)

/-! ## The classifier's layers -/

/-- Classifier layer 1 on a block: the block (rounded to the matmul's input format, which changes nothing
    here) times the [128, 64] weight, plus the bias row repeated down the rows. -/
def layer1 (x : FVec Ideal S3200x128 .f32) (W : FVec Ideal S128x64 .bf16) (β : FVec Ideal S64 .f32) : FVec Ideal S3200x64 .f32 :=
  addf (matmul dot_S3200x128_S128x64_S3200x64_1_0_0_1_n_n none (truncf .bf16 x bitsLt_bf16_f32) W (constant S3200x64 .f32 0x00000000#32))
    (broadcastTo S3200x64 (shapeCast S1x64 β shapeCasts_S64_S1x64) broadcasts_S1x64_S3200x64)

theorem layer1_apply (x : FVec Ideal S3200x128 .f32) (W : FVec Ideal S128x64 .bf16) (β : FVec Ideal S64 .f32)
    (r : Fin 3200) (c : Fin 64) :
    layer1 x W β (ix2 r c) = layer (fun k => x (ix2 r k)) W β c := by
  unfold layer1
  rw [addf_apply, mm_128_64, biasRow]
  rfl

/-- Classifier layer 2 on a block: the block (rounded to the matmul's input format, which changes nothing
    here) times the [64, 32] weight, plus the bias row repeated down the rows. -/
def layer2 (x : FVec Ideal S3200x64 .f32) (W : FVec Ideal S64x32 .bf16) (β : FVec Ideal S32 .f32) : FVec Ideal S3200x32 .f32 :=
  addf (matmul dot_S3200x64_S64x32_S3200x32_1_0_0_1_n_n none (truncf .bf16 x bitsLt_bf16_f32) W (constant S3200x32 .f32 0x00000000#32))
    (broadcastTo S3200x32 (shapeCast S1x32 β shapeCasts_S32_S1x32) broadcasts_S1x32_S3200x32)

theorem layer2_apply (x : FVec Ideal S3200x64 .f32) (W : FVec Ideal S64x32 .bf16) (β : FVec Ideal S32 .f32)
    (r : Fin 3200) (c : Fin 32) :
    layer2 x W β (ix2 r c) = layer (fun k => x (ix2 r k)) W β c := by
  unfold layer2
  rw [addf_apply, mm_64_32, biasRow]
  rfl

/-- Classifier layer 3 on a block: the block (rounded to the matmul's input format, which changes nothing
    here) times the [32, 26] weight, plus the bias row repeated down the rows. -/
def layer3 (x : FVec Ideal S3200x32 .f32) (W : FVec Ideal S32x26 .bf16) (β : FVec Ideal S26 .f32) : FVec Ideal S3200x26 .f32 :=
  addf (matmul dot_S3200x32_S32x26_S3200x26_1_0_0_1_n_n none (truncf .bf16 x bitsLt_bf16_f32) W (constant S3200x26 .f32 0x00000000#32))
    (broadcastTo S3200x26 (shapeCast S1x26 β shapeCasts_S26_S1x26) broadcasts_S1x26_S3200x26)

theorem layer3_apply (x : FVec Ideal S3200x32 .f32) (W : FVec Ideal S32x26 .bf16) (β : FVec Ideal S26 .f32)
    (r : Fin 3200) (c : Fin 26) :
    layer3 x W β (ix2 r c) = layer (fun k => x (ix2 r k)) W β c := by
  unfold layer3
  rw [addf_apply, mm_32_26, biasRow]
  rfl

end Cert.KernelIdeal.Stages

end
-- ==== Proof.KernelBody.lean ====
/-
  The kernel body's result block, as the stages composed, is the row function at every entry: entry (r, c) of the
  block a point writes is the class score c of rows r of the four operand blocks under the fourteen weight and bias
  arrays.  The printed body is that composition once the casts of a vector to its own shape, and the loads and the
  one store through whole buffers, are read away.
-/
import proofs.«164240_j33741263077663_2_alg».proof.Proof.Gen.KernelIdeal.Frame
import proofs.«164240_j33741263077663_2_alg».proof.Proof.KernelStages

noncomputable section

open scoped BigOperators

namespace Cert.KernelIdeal.Body

open Cert.KernelIdeal Cert.KernelIdeal.Gen Cert.KernelIdeal.Stages Idealize.ShloMosaic Idealize.ShloMosaic.ValueIdx
  Cert.EdgeRows

section
variable (x0 x1 x2 x3 : FVec Ideal S3200x128 .bf16)
  (x4 : FVec Ideal S256x128 .bf16) (x5 : FVec Ideal S128 .f32) (x6 : FVec Ideal S256x128 .bf16) (x7 : FVec Ideal S128 .f32)
  (x8 : FVec Ideal S256x128 .bf16) (x9 : FVec Ideal S128 .f32) (x10 : FVec Ideal S256x128 .bf16) (x11 : FVec Ideal S128 .f32)
  (x12 : FVec Ideal S128x64 .bf16) (x13 : FVec Ideal S64 .f32) (x14 : FVec Ideal S64x32 .bf16) (x15 : FVec Ideal S32 .f32)
  (x16 : FVec Ideal S32x26 .bf16) (x17 : FVec Ideal S26 .f32)

/-- The weights and biases as the row function takes them. -/
def params : Params := ⟨x4, x5, x6, x7, x8, x9, x10, x11, x12, x13, x14, x15, x16, x17⟩

/-- query · key on the block. -/
def scoreB : FVec Ideal S3200x128 .f32 := mulf (proj x0 x1 x6 x7) (proj x2 x3 x8 x9)

/-- value · softmax + origin on the block. -/
def fusedB : FVec Ideal S3200x128 .f32 :=
  addf (mulf (proj x2 x3 x10 x11) (soft (scoreB x0 x1 x2 x3 x6 x7 x8 x9))) (proj x0 x1 x4 x5)

/-- The first classifier layer under the maximum with 0. -/
def hidden1B : FVec Ideal S3200x64 .f32 :=
  maximumf (layer1 (fusedB x0 x1 x2 x3 x4 x5 x6 x7 x8 x9 x10 x11) x12 x13)
    (broadcast S3200x64 (Scalar.ofBits (F := Ideal) .f32 0x00000000#32))

def hidden2B : FVec Ideal S3200x32 .f32 :=
  layer2 (hidden1B x0 x1 x2 x3 x4 x5 x6 x7 x8 x9 x10 x11 x12 x13) x14 x15

/-- The block the body stores. -/
def body : FVec Ideal S3200x26 .f32 :=
  layer3 (hidden2B x0 x1 x2 x3 x4 x5 x6 x7 x8 x9 x10 x11 x12 x13 x14 x15) x16 x17

/-- Entry (r, c) of the stored block: the class score c of rows r of the operand blocks. -/
theorem body_apply (r : Fin 3200) (c : Fin 26) :
    body x0 x1 x2 x3 x4 x5 x6 x7 x8 x9 x10 x11 x12 x13 x14 x15 x16 x17 (ix2 r c)
      = scores (params x4 x5 x6 x7 x8 x9 x10 x11 x12 x13 x14 x15 x16 x17) (row x0 r) (row x1 r) (row x2 r) (row x3 r) c := by
  have hs : (fun j => scoreB x0 x1 x2 x3 x6 x7 x8 x9 (ix2 r j))
      = score (params x4 x5 x6 x7 x8 x9 x10 x11 x12 x13 x14 x15 x16 x17) (row x0 r) (row x1 r) (row x2 r) (row x3 r) :=
    funext fun j => by
      show proj x0 x1 x6 x7 (ix2 r j) * proj x2 x3 x8 x9 (ix2 r j) = _
      rw [proj_apply, proj_apply]; rfl
  have hf : (fun k => fusedB x0 x1 x2 x3 x4 x5 x6 x7 x8 x9 x10 x11 (ix2 r k))
      = fused (params x4 x5 x6 x7 x8 x9 x10 x11 x12 x13 x14 x15 x16 x17) (row x0 r) (row x1 r) (row x2 r) (row x3 r) :=
    funext fun k => by
      show proj x2 x3 x10 x11 (ix2 r k) * soft (scoreB x0 x1 x2 x3 x6 x7 x8 x9) (ix2 r k) + proj x0 x1 x4 x5 (ix2 r k) = _
      rw [proj_apply, proj_apply, soft_apply, hs]; rfl
  have h1 : (fun k => hidden1B x0 x1 x2 x3 x4 x5 x6 x7 x8 x9 x10 x11 x12 x13 (ix2 r k))
      = hidden1 (params x4 x5 x6 x7 x8 x9 x10 x11 x12 x13 x14 x15 x16 x17) (row x0 r) (row x1 r) (row x2 r) (row x3 r) :=
    funext fun k => by
      show max (layer1 (fusedB x0 x1 x2 x3 x4 x5 x6 x7 x8 x9 x10 x11) x12 x13 (ix2 r k)) zero32 = _
      rw [layer1_apply, hf]; rfl
  have h2 : (fun k => hidden2B x0 x1 x2 x3 x4 x5 x6 x7 x8 x9 x10 x11 x12 x13 x14 x15 (ix2 r k))
      = hidden2 (params x4 x5 x6 x7 x8 x9 x10 x11 x12 x13 x14 x15 x16 x17) (row x0 r) (row x1 r) (row x2 r) (row x3 r) :=
    funext fun k => by
      unfold hidden2B
      rw [layer2_apply, h1]; rfl
  unfold body
  rw [layer3_apply, h2]; rfl

/-- So the stored block is the row function's result for the 3200 edges of the block. -/
theorem body_eq :
    body x0 x1 x2 x3 x4 x5 x6 x7 x8 x9 x10 x11 x12 x13 x14 x15 x16 x17
      = result 3200 (params x4 x5 x6 x7 x8 x9 x10 x11 x12 x13 x14 x15 x16 x17) x0 x1 x2 x3 :=
  funext fun j => by
    obtain ⟨r, c, rfl⟩ : ∃ (r : Fin 3200) (c : Fin 26), j = ix2 r c := ⟨j 0, j 1, eq_ix2 j⟩
    rw [body_apply, result_apply]

theorem hz2 : (![0, 0] : Fin 2 → Nat) = fun _ => 0 := funext fun a => by fin_cases a <;> rfl
theorem hz1 : (![0] : Fin 1 → Nat) = fun _ => 0 := funext fun a => by fin_cases a; rfl

/-- What the frame leaves in the output window's buffer after the body is that block. -/
theorem out_eq :
    out0_18 (F := Ideal) x0 x1 x2 x3 x4 x5 x6 x7 x8 x9 x10 x11 x12 x13 x14 x15 x16 x17
      = body x0 x1 x2 x3 x4 x5 x6 x7 x8 x9 x10 x11 x12 x13 x14 x15 x16 x17 := by
  unfold out0_18
  rw [View.canon_unit_zero hz2]
  simp only [View.ld_unit_zero (S := S3200x128) hz2, View.ld_unit_zero (S := S256x128) hz2,
    View.ld_unit_zero (S := S128x64) hz2, View.ld_unit_zero (S := S64x32) hz2, View.ld_unit_zero (S := S32x26) hz2,
    View.ld_unit_zero (S := S128) hz1, View.ld_unit_zero (S := S64) hz1, View.ld_unit_zero (S := S32) hz1,
    View.ld_unit_zero (S := S26) hz1]
  unfold k0_pay1 k0_pay15 k0_pay12 k0_pay13 k0_pay14 k0_pay4 k0_pay5 k0_pay7 k0_pay8 k0_pay10 k0_pay11 k0_pay6 k0_pay9
    k0_pay2 k0_pay3
  simp only [shapeCast_self]
  rfl

/-- So what the frame leaves in the output window's buffer is the row function's result for the block's edges. -/
theorem out_result :
    out0_18 (F := Ideal) x0 x1 x2 x3 x4 x5 x6 x7 x8 x9 x10 x11 x12 x13 x14 x15 x16 x17
      = result 3200 (params x4 x5 x6 x7 x8 x9 x10 x11 x12 x13 x14 x15 x16 x17) x0 x1 x2 x3 :=
  (out_eq x0 x1 x2 x3 x4 x5 x6 x7 x8 x9 x10 x11 x12 x13 x14 x15 x16 x17).trans
    (body_eq x0 x1 x2 x3 x4 x5 x6 x7 x8 x9 x10 x11 x12 x13 x14 x15 x16 x17)

end

end Cert.KernelIdeal.Body

end
-- ==== Proof.KernelValue.lean ====
/-
  From the blocks to the whole array.  The grid has 250 points; point t stages rows 3200 t … 3200 t + 3199 of each
  of the four gathered operand arrays and of the result, and the whole of every weight and bias array.  So what point
  t writes back is rows 3200 t … of the row function's result for all 800000 edges, the 250 blocks tile the result
  array (row e lies in block e / 3200), and after the run the result array is that function of the arrays the region
  finds.
-/
import proofs.«164240_j33741263077663_2_alg».proof.Proof.Gen.KernelIdeal.Value
import proofs.«164240_j33741263077663_2_alg».proof.Proof.KernelBody

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.EdgeRows
open Idealize.ShloMosaic.Pipeline (Dat)

variable (m : (ℓ : Loc nD τ sig) → Buf (Elt Ideal) ℓ) (ρ : Dev nD → PrngReg)

/-! ## The index maps over the grid -/

/-- The four operand windows and the result window are at block row t, block column 0, at point t. -/
theorem idx_data : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_18.index t (0 : Fin 2) = t.val
    ∧ win0_18.index t (1 : Fin 2) = 0 :=
  (by decide +kernel : ∀ t : Fin grid0.N, _)

/-- Every weight and bias window is at block 0 at every point. -/
theorem idx_const : ∀ t : Fin cfg0.N,
    win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0
    ∧ win0_16.index t (0 : Fin 2) = 0
    ∧ win0_16.index t (1 : Fin 2) = 0
    ∧ win0_17.index t (0 : Fin 1) = 0 :=
  (by decide +kernel : ∀ t : Fin grid0.N, _)

/-- The edge that row r of point t's block is. -/
def rowOf (t : Fin cfg0.N) (r : Fin 3200) : Fin 800000 :=
  ⟨t.val * 3200 + r.val, by have h := t.isLt; have hN : cfg0.N = 250 := N_0; have := r.isLt; omega⟩

/-! ## The windows' blocks as rows of their arrays -/

/-- Window 4's block is its whole array at every point. -/
theorem blk4 (c : Dev nD) (t : Fin cfg0.N) :
    (iblk m c 4 t : FVec Ideal S256x128 .bf16) = (V m c main_v30 : S256x128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v30 _ = V m c main_v30 y
  refine congrArg (V m c main_v30 : S256x128.Idx → EReal) (funext fun a => Fin.ext ?_)
  match a with
  | ⟨0, _⟩ => show win0_4.index t (0 : Fin 2) * 256 + 1 * (y 0).val = (y 0).val; rw [k4_0]; omega
  | ⟨1, _⟩ => show win0_4.index t (1 : Fin 2) * 128 + 1 * (y 1).val = (y 1).val; rw [k4_1]; omega

/-- Window 5's block is its whole array at every point. -/
theorem blk5 (c : Dev nD) (t : Fin cfg0.N) :
    (iblk m c 5 t : FVec Ideal S128 .f32) = (V m c main_arg5 : S128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg5 _ = V m c main_arg5 y
  refine congrArg (V m c main_arg5 : S128.Idx → EReal) (funext fun a => Fin.ext ?_)
  match a with
  | ⟨0, _⟩ => show win0_5.index t (0 : Fin 1) * 128 + 1 * (y 0).val = (y 0).val; rw [k5_0]; omega

/-- Window 6's block is its whole array at every point. -/
theorem blk6 (c : Dev nD) (t : Fin cfg0.N) :
    (iblk m c 6 t : FVec Ideal S256x128 .bf16) = (V m c main_v31 : S256x128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v31 _ = V m c main_v31 y
  refine congrArg (V m c main_v31 : S256x128.Idx → EReal) (funext fun a => Fin.ext ?_)
  match a with
  | ⟨0, _⟩ => show win0_6.index t (0 : Fin 2) * 256 + 1 * (y 0).val = (y 0).val; rw [k6_0]; omega
  | ⟨1, _⟩ => show win0_6.index t (1 : Fin 2) * 128 + 1 * (y 1).val = (y 1).val; rw [k6_1]; omega

/-- Window 7's block is its whole array at every point. -/
theorem blk7 (c : Dev nD) (t : Fin cfg0.N) :
    (iblk m c 7 t : FVec Ideal S128 .f32) = (V m c main_arg7 : S128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg7 _ = V m c main_arg7 y
  refine congrArg (V m c main_arg7 : S128.Idx → EReal) (funext fun a => Fin.ext ?_)
  match a with
  | ⟨0, _⟩ => show win0_7.index t (0 : Fin 1) * 128 + 1 * (y 0).val = (y 0).val; rw [k7_0]; omega

/-- Window 8's block is its whole array at every point. -/
theorem blk8 (c : Dev nD) (t : Fin cfg0.N) :
    (iblk m c 8 t : FVec Ideal S256x128 .bf16) = (V m c main_v32 : S256x128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v32 _ = V m c main_v32 y
  refine congrArg (V m c main_v32 : S256x128.Idx → EReal) (funext fun a => Fin.ext ?_)
  match a with
  | ⟨0, _⟩ => show win0_8.index t (0 : Fin 2) * 256 + 1 * (y 0).val = (y 0).val; rw [k8_0]; omega
  | ⟨1, _⟩ => show win0_8.index t (1 : Fin 2) * 128 + 1 * (y 1).val = (y 1).val; rw [k8_1]; omega

/-- Window 9's block is its whole array at every point. -/
theorem blk9 (c : Dev nD) (t : Fin cfg0.N) :
    (iblk m c 9 t : FVec Ideal S128 .f32) = (V m c main_arg9 : S128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg9 _ = V m c main_arg9 y
  refine congrArg (V m c main_arg9 : S128.Idx → EReal) (funext fun a => Fin.ext ?_)
  match a with
  | ⟨0, _⟩ => show win0_9.index t (0 : Fin 1) * 128 + 1 * (y 0).val = (y 0).val; rw [k9_0]; omega

/-- Window 10's block is its whole array at every point. -/
theorem blk10 (c : Dev nD) (t : Fin cfg0.N) :
    (iblk m c 10 t : FVec Ideal S256x128 .bf16) = (V m c main_v33 : S256x128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v33 _ = V m c main_v33 y
  refine congrArg (V m c main_v33 : S256x128.Idx → EReal) (funext fun a => Fin.ext ?_)
  match a with
  | ⟨0, _⟩ => show win0_10.index t (0 : Fin 2) * 256 + 1 * (y 0).val = (y 0).val; rw [k10_0]; omega
  | ⟨1, _⟩ => show win0_10.index t (1 : Fin 2) * 128 + 1 * (y 1).val = (y 1).val; rw [k10_1]; omega

/-- Window 11's block is its whole array at every point. -/
theorem blk11 (c : Dev nD) (t : Fin cfg0.N) :
    (iblk m c 11 t : FVec Ideal S128 .f32) = (V m c main_arg11 : S128.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg11 _ = V m c main_arg11 y
  refine congrArg (V m c main_arg11 : S128.Idx → EReal) (funext fun a => Fin.ext ?_)
  match a with
  | ⟨0, _⟩ => show win0_11.index t (0 : Fin 1) * 128 + 1 * (y 0).val = (y 0).val; rw [k11_0]; omega

/-- Window 12's block is its whole array at every point. -/
theorem blk12 (c : Dev nD) (t : Fin cfg0.N) :
    (iblk m c 12 t : FVec Ideal S128x64 .bf16) = (V m c main_v34 : S128x64.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v34 _ = V m c main_v34 y
  refine congrArg (V m c main_v34 : S128x64.Idx → EReal) (funext fun a => Fin.ext ?_)
  match a with
  | ⟨0, _⟩ => show win0_12.index t (0 : Fin 2) * 128 + 1 * (y 0).val = (y 0).val; rw [k12_0]; omega
  | ⟨1, _⟩ => show win0_12.index t (1 : Fin 2) * 64 + 1 * (y 1).val = (y 1).val; rw [k12_1]; omega

/-- Window 13's block is its whole array at every point. -/
theorem blk13 (c : Dev nD) (t : Fin cfg0.N) :
    (iblk m c 13 t : FVec Ideal S64 .f32) = (V m c main_arg13 : S64.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg13 _ = V m c main_arg13 y
  refine congrArg (V m c main_arg13 : S64.Idx → EReal) (funext fun a => Fin.ext ?_)
  match a with
  | ⟨0, _⟩ => show win0_13.index t (0 : Fin 1) * 64 + 1 * (y 0).val = (y 0).val; rw [k13_0]; omega

/-- Window 14's block is its whole array at every point. -/
theorem blk14 (c : Dev nD) (t : Fin cfg0.N) :
    (iblk m c 14 t : FVec Ideal S64x32 .bf16) = (V m c main_v35 : S64x32.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v35 _ = V m c main_v35 y
  refine congrArg (V m c main_v35 : S64x32.Idx → EReal) (funext fun a => Fin.ext ?_)
  match a with
  | ⟨0, _⟩ => show win0_14.index t (0 : Fin 2) * 64 + 1 * (y 0).val = (y 0).val; rw [k14_0]; omega
  | ⟨1, _⟩ => show win0_14.index t (1 : Fin 2) * 32 + 1 * (y 1).val = (y 1).val; rw [k14_1]; omega

/-- Window 15's block is its whole array at every point. -/
theorem blk15 (c : Dev nD) (t : Fin cfg0.N) :
    (iblk m c 15 t : FVec Ideal S32 .f32) = (V m c main_arg15 : S32.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg15 _ = V m c main_arg15 y
  refine congrArg (V m c main_arg15 : S32.Idx → EReal) (funext fun a => Fin.ext ?_)
  match a with
  | ⟨0, _⟩ => show win0_15.index t (0 : Fin 1) * 32 + 1 * (y 0).val = (y 0).val; rw [k15_0]; omega

/-- Window 16's block is its whole array at every point. -/
theorem blk16 (c : Dev nD) (t : Fin cfg0.N) :
    (iblk m c 16 t : FVec Ideal S32x26 .bf16) = (V m c main_v36 : S32x26.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_v36 _ = V m c main_v36 y
  refine congrArg (V m c main_v36 : S32x26.Idx → EReal) (funext fun a => Fin.ext ?_)
  match a with
  | ⟨0, _⟩ => show win0_16.index t (0 : Fin 2) * 32 + 1 * (y 0).val = (y 0).val; rw [k16_0]; omega
  | ⟨1, _⟩ => show win0_16.index t (1 : Fin 2) * 26 + 1 * (y 1).val = (y 1).val; rw [k16_1]; omega

/-- Window 17's block is its whole array at every point. -/
theorem blk17 (c : Dev nD) (t : Fin cfg0.N) :
    (iblk m c 17 t : FVec Ideal S26 .f32) = (V m c main_arg17 : S26.Idx → EReal) := by
  obtain ⟨k4_0, k4_1, k5_0, k6_0, k6_1, k7_0, k8_0, k8_1, k9_0, k10_0, k10_1, k11_0, k12_0, k12_1, k13_0, k14_0, k14_1, k15_0, k16_0, k16_1, k17_0⟩ := idx_const t
  funext y
  unfold iblk
  rw [View.read_apply]
  show V m c main_arg17 _ = V m c main_arg17 y
  refine congrArg (V m c main_arg17 : S26.Idx → EReal) (funext fun a => Fin.ext ?_)
  match a with
  | ⟨0, _⟩ => show win0_17.index t (0 : Fin 1) * 26 + 1 * (y 0).val = (y 0).val; rw [k17_0]; omega

/-- Row r of window 0's block at point t is row 3200 t + r of its array. -/
theorem rows0 (c : Dev nD) (t : Fin cfg0.N) (r : Fin 3200) :
    row (iblk m c 0 t : FVec Ideal S3200x128 .bf16) r = row (V m c main_v8 : S800000x128.Idx → EReal) (rowOf t r) := by
  obtain ⟨d0_0, d0_1, d1_0, d1_1, d2_0, d2_1, d3_0, d3_1, d18_0, d18_1⟩ := idx_data t
  funext k
  show (iblk m c 0 t : FVec Ideal S3200x128 .bf16) (ix2 r k) = (V m c main_v8 : S800000x128.Idx → EReal) (ix2 (rowOf t r) k)
  unfold iblk
  rw [View.read_apply]
  show V m c main_v8 _ = V m c main_v8 _
  refine congrArg (V m c main_v8 : S800000x128.Idx → EReal) (funext fun a => Fin.ext ?_)
  match a with
  | ⟨0, _⟩ => show win0_0.index t (0 : Fin 2) * 3200 + 1 * r.val = t.val * 3200 + r.val; rw [d0_0]; omega
  | ⟨1, _⟩ => show win0_0.index t (1 : Fin 2) * 128 + 1 * k.val = k.val; rw [d0_1]; omega

/-- Row r of window 1's block at point t is row 3200 t + r of its array. -/
theorem rows1 (c : Dev nD) (t : Fin cfg0.N) (r : Fin 3200) :
    row (iblk m c 1 t : FVec Ideal S3200x128 .bf16) r = row (V m c main_v15 : S800000x128.Idx → EReal) (rowOf t r) := by
  obtain ⟨d0_0, d0_1, d1_0, d1_1, d2_0, d2_1, d3_0, d3_1, d18_0, d18_1⟩ := idx_data t
  funext k
  show (iblk m c 1 t : FVec Ideal S3200x128 .bf16) (ix2 r k) = (V m c main_v15 : S800000x128.Idx → EReal) (ix2 (rowOf t r) k)
  unfold iblk
  rw [View.read_apply]
  show V m c main_v15 _ = V m c main_v15 _
  refine congrArg (V m c main_v15 : S800000x128.Idx → EReal) (funext fun a => Fin.ext ?_)
  match a with
  | ⟨0, _⟩ => show win0_1.index t (0 : Fin 2) * 3200 + 1 * r.val = t.val * 3200 + r.val; rw [d1_0]; omega
  | ⟨1, _⟩ => show win0_1.index t (1 : Fin 2) * 128 + 1 * k.val = k.val; rw [d1_1]; omega

/-- Row r of window 2's block at point t is row 3200 t + r of its array. -/
theorem rows2 (c : Dev nD) (t : Fin cfg0.N) (r : Fin 3200) :
    row (iblk m c 2 t : FVec Ideal S3200x128 .bf16) r = row (V m c main_v22 : S800000x128.Idx → EReal) (rowOf t r) := by
  obtain ⟨d0_0, d0_1, d1_0, d1_1, d2_0, d2_1, d3_0, d3_1, d18_0, d18_1⟩ := idx_data t
  funext k
  show (iblk m c 2 t : FVec Ideal S3200x128 .bf16) (ix2 r k) = (V m c main_v22 : S800000x128.Idx → EReal) (ix2 (rowOf t r) k)
  unfold iblk
  rw [View.read_apply]
  show V m c main_v22 _ = V m c main_v22 _
  refine congrArg (V m c main_v22 : S800000x128.Idx → EReal) (funext fun a => Fin.ext ?_)
  match a with
  | ⟨0, _⟩ => show win0_2.index t (0 : Fin 2) * 3200 + 1 * r.val = t.val * 3200 + r.val; rw [d2_0]; omega
  | ⟨1, _⟩ => show win0_2.index t (1 : Fin 2) * 128 + 1 * k.val = k.val; rw [d2_1]; omega

/-- Row r of window 3's block at point t is row 3200 t + r of its array. -/
theorem rows3 (c : Dev nD) (t : Fin cfg0.N) (r : Fin 3200) :
    row (iblk m c 3 t : FVec Ideal S3200x128 .bf16) r = row (V m c main_v29 : S800000x128.Idx → EReal) (rowOf t r) := by
  obtain ⟨d0_0, d0_1, d1_0, d1_1, d2_0, d2_1, d3_0, d3_1, d18_0, d18_1⟩ := idx_data t
  funext k
  show (iblk m c 3 t : FVec Ideal S3200x128 .bf16) (ix2 r k) = (V m c main_v29 : S800000x128.Idx → EReal) (ix2 (rowOf t r) k)
  unfold iblk
  rw [View.read_apply]
  show V m c main_v29 _ = V m c main_v29 _
  refine congrArg (V m c main_v29 : S800000x128.Idx → EReal) (funext fun a => Fin.ext ?_)
  match a with
  | ⟨0, _⟩ => show win0_3.index t (0 : Fin 2) * 3200 + 1 * r.val = t.val * 3200 + r.val; rw [d3_0]; omega
  | ⟨1, _⟩ => show win0_3.index t (1 : Fin 2) * 128 + 1 * k.val = k.val; rw [d3_1]; omega

/-- Entry (r, q) of point t's result block sits at (3200 t + r, q) of the result array. -/
theorem emb18 (t : Fin cfg0.N) (r : Fin 3200) (q : Fin 26) :
    ((cfg0.win 18).blk t).view.emb (ix2 r q) = (ix2 (rowOf t r) q : S800000x26.Idx) := by
  obtain ⟨d0_0, d0_1, d1_0, d1_1, d2_0, d2_1, d3_0, d3_1, d18_0, d18_1⟩ := idx_data t
  funext a; apply Fin.ext
  match a with
  | ⟨0, _⟩ => show win0_18.index t (0 : Fin 2) * 3200 + 1 * r.val = t.val * 3200 + r.val; rw [d18_0]; omega
  | ⟨1, _⟩ => show win0_18.index t (1 : Fin 2) * 26 + 1 * q.val = q.val; rw [d18_1]; omega

/-! ## The whole result -/

/-- The weights and biases as the region finds them. -/
def weights (c : Dev nD) : Params :=
  params (V m c main_v30 : S256x128.Idx → EReal) (V m c main_arg5 : S128.Idx → EReal)
    (V m c main_v31 : S256x128.Idx → EReal) (V m c main_arg7 : S128.Idx → EReal)
    (V m c main_v32 : S256x128.Idx → EReal) (V m c main_arg9 : S128.Idx → EReal)
    (V m c main_v33 : S256x128.Idx → EReal) (V m c main_arg11 : S128.Idx → EReal)
    (V m c main_v34 : S128x64.Idx → EReal) (V m c main_arg13 : S64.Idx → EReal)
    (V m c main_v35 : S64x32.Idx → EReal) (V m c main_arg15 : S32.Idx → EReal)
    (V m c main_v36 : S32x26.Idx → EReal) (V m c main_arg17 : S26.Idx → EReal)

/-- The row function's result for all 800000 edges, over the four gathered arrays as the region finds them. -/
def whole (c : Dev nD) : S800000x26.Idx → EReal :=
  result 800000 (weights m c) (V m c main_v8 : S800000x128.Idx → EReal) (V m c main_v15 : S800000x128.Idx → EReal)
    (V m c main_v22 : S800000x128.Idx → EReal) (V m c main_v29 : S800000x128.Idx → EReal)

/-- What point t writes back is block t of the whole result. -/
theorem flushed_eq (c : Dev nD) (t : Fin cfg0.N) :
    (dats m 0 c).flushed 18 t = ((cfg0.win 18).blk t).view.read (Elt Ideal) (whole m c) := by
  rw [flushed18]
  have e := out_result (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
  funext j
  obtain ⟨r, q, rfl⟩ : ∃ (r : Fin 3200) (q : Fin 26), j = ix2 r q := ⟨j 0, j 1, eq_ix2 j⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r q) = whole m c (((cfg0.win 18).blk t).view.emb (ix2 r q))
  rw [e, emb18, result_apply]
  unfold whole weights
  rw [result_apply, blk4 m c t, blk5 m c t, blk6 m c t, blk7 m c t, blk8 m c t, blk9 m c t, blk10 m c t, blk11 m c t, blk12 m c t, blk13 m c t, blk14 m c t, blk15 m c t, blk16 m c t, blk17 m c t, rows0 m c t r, rows1 m c t r, rows2 m c t r, rows3 m c t r]

/-- An index of the result array is in point t's block iff each coordinate is in the block's range. -/
theorem mem_blk18 (t : Fin cfg0.N) (i : S800000x26.Idx) :
    i ∈ ((cfg0.win 18).blk t).view.set ↔ ∀ a : Fin 2, win0_18.index t a * S3200x26.size a ≤ (i a).val ∧ (i a).val < win0_18.index t a * S3200x26.size a + S3200x26.size a := by
  show i ∈ ((View.whole main_v37).slice (win0_18.rect t)).set ↔ _
  rw [View.set_slice_whole, Rect.mem_set_unit]
  exact Iff.rfl

/-- Every index of the result array is in some point's block: row e in block e / 3200. -/
theorem cover (i : S800000x26.Idx) : ∃ t : Fin cfg0.N, (cfg0.win 18).flush t = true ∧ i ∈ ((cfg0.win 18).blk t).view.set := by
  have hN : cfg0.N = 250 := N_0
  have hi0 : (i 0).val < 800000 := (i 0).isLt
  have hi1 : (i 1).val < 26 := (i 1).isLt
  let t : Fin cfg0.N := ⟨(i 0).val / 3200, by rw [hN]; omega⟩
  obtain ⟨d0_0, d0_1, d1_0, d1_1, d2_0, d2_1, d3_0, d3_1, d18_0, d18_1⟩ := idx_data t
  refine ⟨t, flush0_18 t, ?_⟩
  rw [mem_blk18]
  intro a
  match a with
  | ⟨0, _⟩ => show win0_18.index t (0 : Fin 2) * 3200 ≤ (i 0).val ∧ (i 0).val < win0_18.index t (0 : Fin 2) * 3200 + 3200; rw [d18_0]; show (i 0).val / 3200 * 3200 ≤ (i 0).val ∧ (i 0).val < (i 0).val / 3200 * 3200 + 3200; omega
  | ⟨1, _⟩ => show win0_18.index t (1 : Fin 2) * 26 ≤ (i 1).val ∧ (i 1).val < win0_18.index t (1 : Fin 2) * 26 + 26; rw [d18_1]; omega

/-- After the run the result array is the whole result. -/
theorem final (c : Dev nD) : (dats m 0 c).arrAt 18 cfg0.N = whole m c :=
  (dats m 0 c).arrAt_eq_of_cover 18 (whole m c) (fun t _ => flushed_eq m c t) cover

end Cert.KernelIdeal.Whole

end
-- ==== Proof.KernelHost.lean ====
/-
  What the region finds in its windows' arrays, as functions of the argument arrays, and the kernel's run read over
  them.  Before the region the program changes the two tables' and the seven weights' number format (the identity on
  the extended reals), normalises each index vector (a negative index counts from the end), makes it a column and
  gathers whole rows of a table at it, four times; the bias vectors are untouched.  So after the run the result
  array is the row function's result for the 800000 edges over the four gathered arrays and the argument weights.
-/
import proofs.«164240_j33741263077663_2_alg».proof.Proof.KernelValue
import Idealize.ShloMosaic.Lib.StableHlo.Run

noncomputable section

namespace Cert.KernelIdeal.Entry

open Cert.KernelIdeal Cert.KernelIdeal.Gen Cert.KernelIdeal.Value Cert.KernelIdeal.Body Cert.KernelIdeal.Whole
open Idealize.ShloMosaic Idealize.ShloMosaic.TcCoe Idealize.SL.Sem Idealize.ShloMosaic.ValueIdx Cert.EdgeRows
open Idealize.ShloMosaic.StableHlo

/-- An index vector normalised (a negative index has the table's 100000 rows added) and made a column. -/
def idxCol (x : S800000.Idx → BitVec 32) : S800000x1.Idx → BitVec 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 100000#32))) x)

/-- Whole rows of a table gathered at an index vector. -/
def gathered (tbl : S100000x128.Idx → EReal) (x : S800000.Idx → BitVec 32) : S800000x128.Idx → EReal :=
  Host.gather gather_S100000x128_S800000x1_S800000x128_1_0_n_n_0_1_1128 tbl (idxCol x)

variable (m : (ℓ : Loc nD τ sig) → Buf (Elt Ideal) ℓ) (ρ : Dev nD → PrngReg)

/-- The argument weights and biases. -/
def argWeights (c : Dev nD) : Params :=
  params ((m ((c : Thread nD τ).loc main_arg4)) : S256x128.Idx → EReal) ((m ((c : Thread nD τ).loc main_arg5)) : S128.Idx → EReal)
    ((m ((c : Thread nD τ).loc main_arg6)) : S256x128.Idx → EReal) ((m ((c : Thread nD τ).loc main_arg7)) : S128.Idx → EReal)
    ((m ((c : Thread nD τ).loc main_arg8)) : S256x128.Idx → EReal) ((m ((c : Thread nD τ).loc main_arg9)) : S128.Idx → EReal)
    ((m ((c : Thread nD τ).loc main_arg10)) : S256x128.Idx → EReal) ((m ((c : Thread nD τ).loc main_arg11)) : S128.Idx → EReal)
    ((m ((c : Thread nD τ).loc main_arg12)) : S128x64.Idx → EReal) ((m ((c : Thread nD τ).loc main_arg13)) : S64.Idx → EReal)
    ((m ((c : Thread nD τ).loc main_arg14)) : S64x32.Idx → EReal) ((m ((c : Thread nD τ).loc main_arg15)) : S32.Idx → EReal)
    ((m ((c : Thread nD τ).loc main_arg16)) : S32x26.Idx → EReal) ((m ((c : Thread nD τ).loc main_arg17)) : S26.Idx → EReal)

/-- The result as one function of the argument arrays. -/
def full (c : Dev nD) : S800000x26.Idx → EReal :=
  result 800000 (argWeights m c)
    (gathered ((m ((c : Thread nD τ).loc main_arg0)) : S100000x128.Idx → EReal) ((m ((c : Thread nD τ).loc main_arg2)) : S800000.Idx → BitVec 32))
    (gathered ((m ((c : Thread nD τ).loc main_arg0)) : S100000x128.Idx → EReal) ((m ((c : Thread nD τ).loc main_arg3)) : S800000.Idx → BitVec 32))
    (gathered ((m ((c : Thread nD τ).loc main_arg1)) : S100000x128.Idx → EReal) ((m ((c : Thread nD τ).loc main_arg2)) : S800000.Idx → BitVec 32))
    (gathered ((m ((c : Thread nD τ).loc main_arg1)) : S100000x128.Idx → EReal) ((m ((c : Thread nD τ).loc main_arg3)) : S800000.Idx → BitVec 32))

/-! ## The arrays the region finds -/

set_option maxHeartbeats 4000000 in
theorem V_v8 (c : Dev nD) : (V m c main_v8 : S800000x128.Idx → EReal)
    = gathered ((m ((c : Thread nD τ).loc main_arg0)) : S100000x128.Idx → EReal) ((m ((c : Thread nD τ).loc main_arg2)) : S800000.Idx → BitVec 32) := by
  dsimp only [Gen.V, Gen.hostOps0]; after_results; rfl
set_option maxHeartbeats 4000000 in
theorem V_v15 (c : Dev nD) : (V m c main_v15 : S800000x128.Idx → EReal)
    = gathered ((m ((c : Thread nD τ).loc main_arg0)) : S100000x128.Idx → EReal) ((m ((c : Thread nD τ).loc main_arg3)) : S800000.Idx → BitVec 32) := by
  dsimp only [Gen.V, Gen.hostOps0]; after_results; rfl
set_option maxHeartbeats 4000000 in
theorem V_v22 (c : Dev nD) : (V m c main_v22 : S800000x128.Idx → EReal)
    = gathered ((m ((c : Thread nD τ).loc main_arg1)) : S100000x128.Idx → EReal) ((m ((c : Thread nD τ).loc main_arg2)) : S800000.Idx → BitVec 32) := by
  dsimp only [Gen.V, Gen.hostOps0]; after_results; rfl
set_option maxHeartbeats 4000000 in
theorem V_v29 (c : Dev nD) : (V m c main_v29 : S800000x128.Idx → EReal)
    = gathered ((m ((c : Thread nD τ).loc main_arg1)) : S100000x128.Idx → EReal) ((m ((c : Thread nD τ).loc main_arg3)) : S800000.Idx → BitVec 32) := by
  dsimp only [Gen.V, Gen.hostOps0]; after_results; rfl

theorem V_v30 (c : Dev nD) : (V m c main_v30 : S256x128.Idx → EReal) = ((m ((c : Thread nD τ).loc main_arg4)) : S256x128.Idx → EReal) := by
  dsimp only [Gen.V, Gen.hostOps0]; after_results; rfl
theorem V_v31 (c : Dev nD) : (V m c main_v31 : S256x128.Idx → EReal) = ((m ((c : Thread nD τ).loc main_arg6)) : S256x128.Idx → EReal) := by
  dsimp only [Gen.V, Gen.hostOps0]; after_results; rfl
theorem V_v32 (c : Dev nD) : (V m c main_v32 : S256x128.Idx → EReal) = ((m ((c : Thread nD τ).loc main_arg8)) : S256x128.Idx → EReal) := by
  dsimp only [Gen.V, Gen.hostOps0]; after_results; rfl
theorem V_v33 (c : Dev nD) : (V m c main_v33 : S256x128.Idx → EReal) = ((m ((c : Thread nD τ).loc main_arg10)) : S256x128.Idx → EReal) := by
  dsimp only [Gen.V, Gen.hostOps0]; after_results; rfl
theorem V_v34 (c : Dev nD) : (V m c main_v34 : S128x64.Idx → EReal) = ((m ((c : Thread nD τ).loc main_arg12)) : S128x64.Idx → EReal) := by
  dsimp only [Gen.V, Gen.hostOps0]; after_results; rfl
theorem V_v35 (c : Dev nD) : (V m c main_v35 : S64x32.Idx → EReal) = ((m ((c : Thread nD τ).loc main_arg14)) : S64x32.Idx → EReal) := by
  dsimp only [Gen.V, Gen.hostOps0]; after_results; rfl
theorem V_v36 (c : Dev nD) : (V m c main_v36 : S32x26.Idx → EReal) = ((m ((c : Thread nD τ).loc main_arg16)) : S32x26.Idx → EReal) := by
  dsimp only [Gen.V, Gen.hostOps0]; after_results; rfl

/-- The whole result over the arrays the region finds is the result over the argument arrays. -/
theorem whole_eq (c : Dev nD) : whole m c = full m c := by
  unfold whole weights full argWeights
  rw [V_v8 m c, V_v15 m c, V_v22 m c, V_v29 m c, V_v30 m c, V_v31 m c, V_v32 m c, V_v33 m c, V_v34 m c, V_v35 m c, V_v36 m c,
    V_main_arg5 m c, V_main_arg7 m c, V_main_arg9 m c, V_main_arg11 m c, V_main_arg13 m c, V_main_arg15 m c, V_main_arg17 m c]

/-- The kernel's run: the result array ends at the result over the argument arrays, the arguments unchanged. -/
theorem run : θ_run defs (onTc (τ := τ) (main (F := Ideal))) ⟨m, fun _ => 0, ρ⟩ fun r => ∀ c : Dev nD,
      r.2.mem ((c : Thread nD τ).loc main_v37) = full m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans ((final m c).trans (whole_eq m c)), (h c).2⟩)
    (Cert.KernelIdeal.Value.run_blocks m ρ)

end Cert.KernelIdeal.Entry

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.ReferenceRows.lean ====
/-
  The reference's stages on all 800000 edges, each read at an entry (e, c) on the extended reals, and the reference's
  result as the row function's result over the four gathered arrays.

  The reference joins the two end points' gathered rows side by side (256 entries) and multiplies by the whole
  stacked weight: a sum over 256 terms whose first 128 come from the first array and whose last 128 from the second,
  so the sum of the two halves (the one law this certificate uses).  The rest is what the kernel does, spelt in host
  operations: a bias vector made a row and repeated down the rows, a row maximum or sum kept as a column and
  repeated across the columns.
-/
import proofs.«164240_j33741263077663_2_alg».proof.Proof.Gen.ReferenceIdeal.Read
import proofs.«164240_j33741263077663_2_alg».proof.Proof.Spec
import proofs.«164240_j33741263077663_2_alg».proof.Proof.LibDotGeneralAt
import proofs.«164240_j33741263077663_2_alg».proof.Proof.LibRowReduceColumn
import proofs.«164240_j33741263077663_2_alg».proof.Proof.LibHostRowColumn
import Idealize.ShloMosaic.Lib.ValueLayout

noncomputable section

open scoped BigOperators

namespace Cert.ReferenceIdeal.Rows

open Cert.ReferenceIdeal Cert.ReferenceIdeal.Gen Idealize.ShloMosaic Idealize.ShloMosaic.ValueIdx Cert.EdgeRows

/-! ## Matrix products read at an entry -/

/-- The 800000 rows times a [256, 128] matrix at entry (e, c): Σ_k lhs[e, k] · rhs[k, c]. -/
theorem dg_256_128 (lhs : FVec Ideal S800000x256 .f32) (rhs : FVec Ideal S256x128 .f32) (e : Fin 800000) (c : Fin 128) :
    Host.dotGeneral dot_S800000x256_S256x128_S800000x128_1_0_0_1_n_n none lhs rhs (ix2 e c) = ∑ k : Fin 256, lhs (ix2 e k) * rhs (ix2 k c) := by
  simp only [Host.dotGeneral]
  exact Cert.Lib.DotGeneralAt.dotGeneral_at dot_S800000x256_S256x128_S800000x128_1_0_0_1_n_n rfl rfl
    (fun j q => by
      unfold DotDims.lhsIdx
      rw [dif_neg (show ¬(0 : Fin S800000x256.rank) ∈ dot_S800000x256_S256x128_S800000x128_1_0_0_1_n_n.lhsBatch by decide),
        dif_pos (show (0 : Fin S800000x256.rank) ∈ dot_S800000x256_S256x128_S800000x128_1_0_0_1_n_n.lhsNonContracting by decide)]
      rfl)
    (fun j q => dot_S800000x256_S256x128_S800000x128_1_0_0_1_n_n.lhsIdx_val_of_single rfl j q)
    (fun j q => dot_S800000x256_S256x128_S800000x128_1_0_0_1_n_n.rhsIdx_val_of_single rfl j q)
    (fun j q => by
      unfold DotDims.rhsIdx
      rw [dif_neg (show ¬(1 : Fin S256x128.rank) ∈ dot_S800000x256_S256x128_S800000x128_1_0_0_1_n_n.rhsBatch by decide),
        dif_pos (show (1 : Fin S256x128.rank) ∈ dot_S800000x256_S256x128_S800000x128_1_0_0_1_n_n.rhsNonContracting by decide)]
      rfl)
    none _ lhs rhs e c

/-- The 800000 rows times a [128, 64] matrix at entry (e, c): Σ_k lhs[e, k] · rhs[k, c]. -/
theorem dg_128_64 (lhs : FVec Ideal S800000x128 .f32) (rhs : FVec Ideal S128x64 .f32) (e : Fin 800000) (c : Fin 64) :
    Host.dotGeneral dot_S800000x128_S128x64_S800000x64_1_0_0_1_n_n none lhs rhs (ix2 e c) = ∑ k : Fin 128, lhs (ix2 e k) * rhs (ix2 k c) := by
  simp only [Host.dotGeneral]
  exact Cert.Lib.DotGeneralAt.dotGeneral_at dot_S800000x128_S128x64_S800000x64_1_0_0_1_n_n rfl rfl
    (fun j q => by
      unfold DotDims.lhsIdx
      rw [dif_neg (show ¬(0 : Fin S800000x128.rank) ∈ dot_S800000x128_S128x64_S800000x64_1_0_0_1_n_n.lhsBatch by decide),
        dif_pos (show (0 : Fin S800000x128.rank) ∈ dot_S800000x128_S128x64_S800000x64_1_0_0_1_n_n.lhsNonContracting by decide)]
      rfl)
    (fun j q => dot_S800000x128_S128x64_S800000x64_1_0_0_1_n_n.lhsIdx_val_of_single rfl j q)
    (fun j q => dot_S800000x128_S128x64_S800000x64_1_0_0_1_n_n.rhsIdx_val_of_single rfl j q)
    (fun j q => by
      unfold DotDims.rhsIdx
      rw [dif_neg (show ¬(1 : Fin S128x64.rank) ∈ dot_S800000x128_S128x64_S800000x64_1_0_0_1_n_n.rhsBatch by decide),
        dif_pos (show (1 : Fin S128x64.rank) ∈ dot_S800000x128_S128x64_S800000x64_1_0_0_1_n_n.rhsNonContracting by decide)]
      rfl)
    none _ lhs rhs e c

/-- The 800000 rows times a [64, 32] matrix at entry (e, c): Σ_k lhs[e, k] · rhs[k, c]. -/
theorem dg_64_32 (lhs : FVec Ideal S800000x64 .f32) (rhs : FVec Ideal S64x32 .f32) (e : Fin 800000) (c : Fin 32) :
    Host.dotGeneral dot_S800000x64_S64x32_S800000x32_1_0_0_1_n_n none lhs rhs (ix2 e c) = ∑ k : Fin 64, lhs (ix2 e k) * rhs (ix2 k c) := by
  simp only [Host.dotGeneral]
  exact Cert.Lib.DotGeneralAt.dotGeneral_at dot_S800000x64_S64x32_S800000x32_1_0_0_1_n_n rfl rfl
    (fun j q => by
      unfold DotDims.lhsIdx
      rw [dif_neg (show ¬(0 : Fin S800000x64.rank) ∈ dot_S800000x64_S64x32_S800000x32_1_0_0_1_n_n.lhsBatch by decide),
        dif_pos (show (0 : Fin S800000x64.rank) ∈ dot_S800000x64_S64x32_S800000x32_1_0_0_1_n_n.lhsNonContracting by decide)]
      rfl)
    (fun j q => dot_S800000x64_S64x32_S800000x32_1_0_0_1_n_n.lhsIdx_val_of_single rfl j q)
    (fun j q => dot_S800000x64_S64x32_S800000x32_1_0_0_1_n_n.rhsIdx_val_of_single rfl j q)
    (fun j q => by
      unfold DotDims.rhsIdx
      rw [dif_neg (show ¬(1 : Fin S64x32.rank) ∈ dot_S800000x64_S64x32_S800000x32_1_0_0_1_n_n.rhsBatch by decide),
        dif_pos (show (1 : Fin S64x32.rank) ∈ dot_S800000x64_S64x32_S800000x32_1_0_0_1_n_n.rhsNonContracting by decide)]
      rfl)
    none _ lhs rhs e c

/-- The 800000 rows times a [32, 26] matrix at entry (e, c): Σ_k lhs[e, k] · rhs[k, c]. -/
theorem dg_32_26 (lhs : FVec Ideal S800000x32 .f32) (rhs : FVec Ideal S32x26 .f32) (e : Fin 800000) (c : Fin 26) :
    Host.dotGeneral dot_S800000x32_S32x26_S800000x26_1_0_0_1_n_n none lhs rhs (ix2 e c) = ∑ k : Fin 32, lhs (ix2 e k) * rhs (ix2 k c) := by
  simp only [Host.dotGeneral]
  exact Cert.Lib.DotGeneralAt.dotGeneral_at dot_S800000x32_S32x26_S800000x26_1_0_0_1_n_n rfl rfl
    (fun j q => by
      unfold DotDims.lhsIdx
      rw [dif_neg (show ¬(0 : Fin S800000x32.rank) ∈ dot_S800000x32_S32x26_S800000x26_1_0_0_1_n_n.lhsBatch by decide),
        dif_pos (show (0 : Fin S800000x32.rank) ∈ dot_S800000x32_S32x26_S800000x26_1_0_0_1_n_n.lhsNonContracting by decide)]
      rfl)
    (fun j q => dot_S800000x32_S32x26_S800000x26_1_0_0_1_n_n.lhsIdx_val_of_single rfl j q)
    (fun j q => dot_S800000x32_S32x26_S800000x26_1_0_0_1_n_n.rhsIdx_val_of_single rfl j q)
    (fun j q => by
      unfold DotDims.rhsIdx
      rw [dif_neg (show ¬(1 : Fin S32x26.rank) ∈ dot_S800000x32_S32x26_S800000x26_1_0_0_1_n_n.rhsBatch by decide),
        dif_pos (show (1 : Fin S32x26.rank) ∈ dot_S800000x32_S32x26_S800000x26_1_0_0_1_n_n.rhsNonContracting by decide)]
      rfl)
    none _ lhs rhs e c

/-! ## Layout operations of the host read at an entry -/

/-- A vector of b entries made one row and repeated down a rows reads, at (e, c), the vector's entry c. -/
theorem biasRow {a b : ℕ} (β : (⟨1, ![b]⟩ : Shape).Idx → EReal)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  Cert.Lib.HostRowColumn.row_repeated β h h' e c

/-- A vector of a entries made a column and repeated across b columns reads, at (e, c), the vector's entry e. -/
theorem column {a b : ℕ} (v : (⟨1, ![a]⟩ : Shape).Idx → EReal)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  Cert.Lib.HostRowColumn.column_repeated v h h' e c

/-- Two arrays of 128 columns joined side by side: column k of the first, -/
theorem joined_top (a b : FVec Ideal S800000x128 .f32) (e : Fin 800000) (k : Fin 128) :
    concatenate S800000x256 1 [⟨S800000x128, a⟩, ⟨S800000x128, b⟩] concatenates_S800000x128_S800000x128_S800000x256_d1
      (ix2 e (top k)) = a (ix2 e k) :=
  concatenate_pair_apply_left 1 a b _ (ix2 e (top k)) rfl (ix2 e k) (fun ax => by
    match ax with
    | ⟨0, _⟩ => rfl
    | ⟨1, _⟩ => rfl)

/-- and column k of the second at column 128 + k. -/
theorem joined_bot (a b : FVec Ideal S800000x128 .f32) (e : Fin 800000) (k : Fin 128) :
    concatenate S800000x256 1 [⟨S800000x128, a⟩, ⟨S800000x128, b⟩] concatenates_S800000x128_S800000x128_S800000x256_d1
      (ix2 e (bot k)) = b (ix2 e k) :=
  concatenate_pair_apply_right 1 a b _ (ix2 e (bot k)) rfl rfl (ix2 e k) (fun ax hne => by
    match ax with
    | ⟨0, _⟩ => rfl
    | ⟨1, _⟩ => exact absurd rfl hne) (by show k.val + 128 = 128 + k.val; omega)

/-! ## A pair of operand arrays through a stacked weight -/

/-- The two arrays joined, times the whole weight, plus the bias row. -/
def proj (a b : FVec Ideal S800000x128 .f32) (W : FVec Ideal S256x128 .f32) (β : FVec Ideal S128 .f32) :
    FVec Ideal S800000x128 .f32 :=
  addf
    (Host.dotGeneral dot_S800000x256_S256x128_S800000x128_1_0_0_1_n_n none
      (concatenate S800000x256 1 [⟨S800000x128, a⟩, ⟨S800000x128, b⟩] concatenates_S800000x128_S800000x128_S800000x256_d1) W)
    (broadcastInDim S800000x128 ![0, 1] bcast_S1x128_S800000x128_0_1 (broadcastInDim S1x128 ![1] bcast_S128_S1x128_1 β))

theorem proj_apply (a b : FVec Ideal S800000x128 .f32) (W : FVec Ideal S256x128 .f32) (β : FVec Ideal S128 .f32)
    (e : Fin 800000) (c : Fin 128) : proj a b W β (ix2 e c) = pair (row a e) (row b e) W β c := by
  unfold proj
  rw [addf_apply, dg_256_128, biasRow, halves]
  refine congrArg (· + β (ix1 c)) (congrArg₂ (· + ·) (Finset.sum_congr rfl fun k _ => ?_) (Finset.sum_congr rfl fun k _ => ?_))
  · rw [joined_top]; rfl
  · rw [joined_bot]; rfl

/-! ## The softmax along the rows -/

/-- Each row's maximum (from −∞, once more against −∞), as a column, repeated across the 128 columns. -/
def rowMaxB (z : FVec Ideal S800000x128 .f32) : FVec Ideal S800000x128 .f32 :=
  broadcastInDim S800000x128 ![0, 1] bcast_S800000x1_S800000x128_0_1
    (broadcastInDim S800000x1 ![0] bcast_S800000_S800000x1_0
      (maximumf (broadcastInDim S800000 ![] bcast_S_S800000 (constant (F := Ideal) S_ .f32 0xFF800000#32))
        (Host.reduce FloatOps.maximumf z (constant (F := Ideal) S_ .f32 0xFF800000#32) reducesTo_S800000x128_S800000_d1 h_S_)))

theorem rowMaxB_apply (z : FVec Ideal S800000x128 .f32) (e : Fin 800000) (c : Fin 128) :
    rowMaxB z (ix2 e c) = rowMax (fun k => z (ix2 e k)) := by
  unfold rowMaxB
  rw [column, maximumf_apply, broadcastInDim_apply _ bcast_S_S800000 _ (ix1 e) ix0 (fun a => a.elim0), constant_apply]
  unfold rowMax
  refine congrArg (max negInf) ?_
  refine (Host.reduce_eq_fold_single FloatOps.maximumf z _ reducesTo_S800000x128_S800000_d1 (by decide) h_S_ (ix1 e)).trans ?_
  exact congrArg (fun f => (Finset.univ : Finset (Fin 128)).fold max negInf f)
    (funext fun k => congrArg z (Cert.Lib.RowReduceColumn.lift_row _ e k))

/-- exp of each entry less its row's maximum. -/
def expShift (z : FVec Ideal S800000x128 .f32) : FVec Ideal S800000x128 .f32 := Host.exp (subf z (rowMaxB z))

theorem expShift_apply (z : FVec Ideal S800000x128 .f32) (e : Fin 800000) (c : Fin 128) :
    expShift z (ix2 e c) = Ideal.exp (z (ix2 e c) - rowMax (fun k => z (ix2 e k))) := by
  show Ideal.exp (z (ix2 e c) - rowMaxB z (ix2 e c)) = _
  rw [rowMaxB_apply]

/-- Each row's sum, as a column, repeated across the 128 columns. -/
def rowSumB (x : FVec Ideal S800000x128 .f32) : FVec Ideal S800000x128 .f32 :=
  broadcastInDim S800000x128 ![0, 1] bcast_S800000x1_S800000x128_0_1
    (broadcastInDim S800000x1 ![0] bcast_S800000_S800000x1_0
      (Host.reduceAdd x (constant (F := Ideal) S_ .f32 0x00000000#32) reducesTo_S800000x128_S800000_d1 h_S_))

theorem rowSumB_apply (x : FVec Ideal S800000x128 .f32) (e : Fin 800000) (c : Fin 128) :
    rowSumB x (ix2 e c) = ∑ k : Fin 128, x (ix2 e k) := by
  unfold rowSumB
  rw [column]
  simp only [Host.reduceAdd, Ideal.hostReduceAdd_def]
  rw [Ideal.hostReduceAdd_single reducesTo_S800000x128_S800000_d1 (by decide)]
  show Ideal.ofBits .f32 0x00000000#32 + _ = _
  rw [Ideal.ofBits_zero_f32, zero_add]
  exact Finset.sum_congr rfl fun k _ => congrArg x (Cert.Lib.RowReduceColumn.lift_row _ e k)

/-- The softmax of every row. -/
def soft (z : FVec Ideal S800000x128 .f32) : FVec Ideal S800000x128 .f32 := Host.divf (expShift z) (rowSumB (expShift z))

/-- The host's division of two arrays, read at an index. -/
theorem hostDiv_at {s : Shape} (x y : FVec Ideal s .f32) (i : s.Idx) : Host.divf x y i = Ideal.div (x i) (y i) := rfl

theorem soft_apply (z : FVec Ideal S800000x128 .f32) (e : Fin 800000) (c : Fin 128) :
    soft z (ix2 e c) = softmax (fun k => z (ix2 e k)) c :=
  (hostDiv_at (expShift z) (rowSumB (expShift z)) (ix2 e c)).trans (by
    rw [rowSumB_apply, expShift_apply]
    exact congrArg (Ideal.div _) (Finset.sum_congr rfl fun k _ => expShift_apply z e k))

/-! ## The classifier's layers -/

/-- Classifier layer 1 on all rows: the rows times the [128, 64] weight, plus the bias row repeated down the rows. -/
def layer1 (x : FVec Ideal S800000x128 .f32) (W : FVec Ideal S128x64 .f32) (β : FVec Ideal S64 .f32) : FVec Ideal S800000x64 .f32 :=
  addf (Host.dotGeneral dot_S800000x128_S128x64_S800000x64_1_0_0_1_n_n none x W)
    (broadcastInDim S800000x64 ![0, 1] bcast_S1x64_S800000x64_0_1 (broadcastInDim S1x64 ![1] bcast_S64_S1x64_1 β))

theorem layer1_apply (x : FVec Ideal S800000x128 .f32) (W : FVec Ideal S128x64 .f32) (β : FVec Ideal S64 .f32)
    (e : Fin 800000) (c : Fin 64) :
    layer1 x W β (ix2 e c) = layer (fun k => x (ix2 e k)) W β c := by
  unfold layer1
  rw [addf_apply, dg_128_64, biasRow]
  rfl

/-- Classifier layer 2 on all rows: the rows times the [64, 32] weight, plus the bias row repeated down the rows. -/
def layer2 (x : FVec Ideal S800000x64 .f32) (W : FVec Ideal S64x32 .f32) (β : FVec Ideal S32 .f32) : FVec Ideal S800000x32 .f32 :=
  addf (Host.dotGeneral dot_S800000x64_S64x32_S800000x32_1_0_0_1_n_n none x W)
    (broadcastInDim S800000x32 ![0, 1] bcast_S1x32_S800000x32_0_1 (broadcastInDim S1x32 ![1] bcast_S32_S1x32_1 β))

theorem layer2_apply (x : FVec Ideal S800000x64 .f32) (W : FVec Ideal S64x32 .f32) (β : FVec Ideal S32 .f32)
    (e : Fin 800000) (c : Fin 32) :
    layer2 x W β (ix2 e c) = layer (fun k => x (ix2 e k)) W β c := by
  unfold layer2
  rw [addf_apply, dg_64_32, biasRow]
  rfl

/-- Classifier layer 3 on all rows: the rows times the [32, 26] weight, plus the bias row repeated down the rows. -/
def layer3 (x : FVec Ideal S800000x32 .f32) (W : FVec Ideal S32x26 .f32) (β : FVec Ideal S26 .f32) : FVec Ideal S800000x26 .f32 :=
  addf (Host.dotGeneral dot_S800000x32_S32x26_S800000x26_1_0_0_1_n_n none x W)
    (broadcastInDim S800000x26 ![0, 1] bcast_S1x26_S800000x26_0_1 (broadcastInDim S1x26 ![1] bcast_S26_S1x26_1 β))

theorem layer3_apply (x : FVec Ideal S800000x32 .f32) (W : FVec Ideal S32x26 .f32) (β : FVec Ideal S26 .f32)
    (e : Fin 800000) (c : Fin 26) :
    layer3 x W β (ix2 e c) = layer (fun k => x (ix2 e k)) W β c := by
  unfold layer3
  rw [addf_apply, dg_32_26, biasRow]
  rfl

/-! ## The whole reference -/

section
variable (A B D E : FVec Ideal S800000x128 .f32)
  (x4 : FVec Ideal S256x128 .f32) (x5 : FVec Ideal S128 .f32) (x6 : FVec Ideal S256x128 .f32) (x7 : FVec Ideal S128 .f32)
  (x8 : FVec Ideal S256x128 .f32) (x9 : FVec Ideal S128 .f32) (x10 : FVec Ideal S256x128 .f32) (x11 : FVec Ideal S128 .f32)
  (x12 : FVec Ideal S128x64 .f32) (x13 : FVec Ideal S64 .f32) (x14 : FVec Ideal S64x32 .f32) (x15 : FVec Ideal S32 .f32)
  (x16 : FVec Ideal S32x26 .f32) (x17 : FVec Ideal S26 .f32)

/-- The weights and biases as the row function takes them. -/
def params : Params := ⟨x4, x5, x6, x7, x8, x9, x10, x11, x12, x13, x14, x15, x16, x17⟩

/-- query · key on all rows. -/
def scoreB : FVec Ideal S800000x128 .f32 := mulf (proj A B x6 x7) (proj D E x8 x9)

/-- value · softmax + origin on all rows. -/
def fusedB : FVec Ideal S800000x128 .f32 :=
  addf (mulf (proj D E x10 x11) (soft (scoreB A B D E x6 x7 x8 x9))) (proj A B x4 x5)

/-- The first classifier layer under the maximum with 0. -/
def hidden1B : FVec Ideal S800000x64 .f32 :=
  maximumf (layer1 (fusedB A B D E x4 x5 x6 x7 x8 x9 x10 x11) x12 x13)
    (broadcastInDim S800000x64 ![] bcast_S_S800000x64 (constant (F := Ideal) S_ .f32 0x00000000#32))

def hidden2B : FVec Ideal S800000x32 .f32 :=
  layer2 (hidden1B A B D E x4 x5 x6 x7 x8 x9 x10 x11 x12 x13) x14 x15

/-- The reference's result over the four gathered arrays. -/
def body : FVec Ideal S800000x26 .f32 :=
  layer3 (hidden2B A B D E x4 x5 x6 x7 x8 x9 x10 x11 x12 x13 x14 x15) x16 x17

/-- Entry (e, c) of the reference's result: the class score c of rows e of the gathered arrays. -/
theorem body_apply (e : Fin 800000) (c : Fin 26) :
    body A B D E x4 x5 x6 x7 x8 x9 x10 x11 x12 x13 x14 x15 x16 x17 (ix2 e c)
      = scores (params x4 x5 x6 x7 x8 x9 x10 x11 x12 x13 x14 x15 x16 x17) (row A e) (row B e) (row D e) (row E e) c := by
  have hs : (fun j => scoreB A B D E x6 x7 x8 x9 (ix2 e j))
      = score (params x4 x5 x6 x7 x8 x9 x10 x11 x12 x13 x14 x15 x16 x17) (row A e) (row B e) (row D e) (row E e) :=
    funext fun j => by
      show proj A B x6 x7 (ix2 e j) * proj D E x8 x9 (ix2 e j) = _
      rw [proj_apply, proj_apply]; rfl
  have hf : (fun k => fusedB A B D E x4 x5 x6 x7 x8 x9 x10 x11 (ix2 e k))
      = fused (params x4 x5 x6 x7 x8 x9 x10 x11 x12 x13 x14 x15 x16 x17) (row A e) (row B e) (row D e) (row E e) :=
    funext fun k => by
      show proj D E x10 x11 (ix2 e k) * soft (scoreB A B D E x6 x7 x8 x9) (ix2 e k) + proj A B x4 x5 (ix2 e k) = _
      rw [proj_apply, proj_apply, soft_apply, hs]; rfl
  have h1 : (fun k => hidden1B A B D E x4 x5 x6 x7 x8 x9 x10 x11 x12 x13 (ix2 e k))
      = hidden1 (params x4 x5 x6 x7 x8 x9 x10 x11 x12 x13 x14 x15 x16 x17) (row A e) (row B e) (row D e) (row E e) :=
    funext fun k => by
      show max (layer1 (fusedB A B D E x4 x5 x6 x7 x8 x9 x10 x11) x12 x13 (ix2 e k))
        (broadcastInDim S800000x64 ![] bcast_S_S800000x64 (constant (F := Ideal) S_ .f32 0x00000000#32) (ix2 e k)) = _
      rw [layer1_apply, hf, broadcastInDim_apply _ bcast_S_S800000x64 _ (ix2 e k) ix0 (fun a => a.elim0)]; rfl
  have h2 : (fun k => hidden2B A B D E x4 x5 x6 x7 x8 x9 x10 x11 x12 x13 x14 x15 (ix2 e k))
      = hidden2 (params x4 x5 x6 x7 x8 x9 x10 x11 x12 x13 x14 x15 x16 x17) (row A e) (row B e) (row D e) (row E e) :=
    funext fun k => by
      unfold hidden2B
      rw [layer2_apply, h1]; rfl
  unfold body
  rw [layer3_apply, h2]; rfl

/-- So the reference's result is the row function's result for the 800000 edges. -/
theorem body_eq :
    body A B D E x4 x5 x6 x7 x8 x9 x10 x11 x12 x13 x14 x15 x16 x17
      = result 800000 (params x4 x5 x6 x7 x8 x9 x10 x11 x12 x13 x14 x15 x16 x17) A B D E :=
  funext fun j => by
    obtain ⟨e, c, rfl⟩ : ∃ (e : Fin 800000) (c : Fin 26), j = ix2 e c := ⟨j 0, j 1, eq_ix2 j⟩
    rw [body_apply, result_apply]

end

/-- The reference's last stage, as the generated reading names it, is that result over the four gathers. -/
theorem stage_eq (x0 x1 : FVec Ideal S100000x128 .f32) (x2 x3 : S800000.Idx → BitVec 32)
  (x4 : FVec Ideal S256x128 .f32) (x5 : FVec Ideal S128 .f32) (x6 : FVec Ideal S256x128 .f32) (x7 : FVec Ideal S128 .f32)
  (x8 : FVec Ideal S256x128 .f32) (x9 : FVec Ideal S128 .f32) (x10 : FVec Ideal S256x128 .f32) (x11 : FVec Ideal S128 .f32)
  (x12 : FVec Ideal S128x64 .f32) (x13 : FVec Ideal S64 .f32) (x14 : FVec Ideal S64x32 .f32) (x15 : FVec Ideal S32 .f32)
  (x16 : FVec Ideal S32x26 .f32) (x17 : FVec Ideal S26 .f32) :
    Cert.ReferenceIdeal.Read.val_main_v72 (F := Ideal) x0 x1 x2 x3 x4 x5 x6 x7 x8 x9 x10 x11 x12 x13 x14 x15 x16 x17
      = result 800000 (params x4 x5 x6 x7 x8 x9 x10 x11 x12 x13 x14 x15 x16 x17)
          (Cert.ReferenceIdeal.Read.val_main_v6 (F := Ideal) x0 x2) (Cert.ReferenceIdeal.Read.val_main_v13 (F := Ideal) x0 x3)
          (Cert.ReferenceIdeal.Read.val_main_v21 (F := Ideal) x1 x2) (Cert.ReferenceIdeal.Read.val_main_v28 (F := Ideal) x1 x3) :=
  (show Cert.ReferenceIdeal.Read.val_main_v72 (F := Ideal) x0 x1 x2 x3 x4 x5 x6 x7 x8 x9 x10 x11 x12 x13 x14 x15 x16 x17
      = body (Cert.ReferenceIdeal.Read.val_main_v6 (F := Ideal) x0 x2) (Cert.ReferenceIdeal.Read.val_main_v13 (F := Ideal) x0 x3)
          (Cert.ReferenceIdeal.Read.val_main_v21 (F := Ideal) x1 x2) (Cert.ReferenceIdeal.Read.val_main_v28 (F := Ideal) x1 x3)
          x4 x5 x6 x7 x8 x9 x10 x11 x12 x13 x14 x15 x16 x17 from rfl).trans
    (body_eq _ _ _ _ x4 x5 x6 x7 x8 x9 x10 x11 x12 x13 x14 x15 x16 x17)

end Cert.ReferenceIdeal.Rows

end
-- ==== Proof.lean ====
/-
  The certificate of the edge classifier kernel against its reference.

  Both programs gather, for each of 800000 edges, the rows of the node-feature table and of the descriptor table at
  the edge's two end points (the same index normalisation and the same gather on both sides; the kernel's change of
  number format first is the identity on the extended reals), and both then compute, edge by edge, one function of the
  four gathered rows and the fourteen weight and bias arrays: four projections of a pair of rows through a stacked
  weight, the softmax over the 128 features of query · key, value · softmax + origin, and three affine layers (the
  first under a maximum with 0).  The kernel works on blocks of 3200 edges and takes each projection as two products
  with the weight's two halves, added; the reference joins the two rows and takes one product with the whole weight.
  The one law between them is that a sum over 256 terms is the sum of its two halves, which holds on the extended
  reals without any finiteness, so the precondition is never opened.  The idealization rewrote nothing, so the
  conjunct about it is trivial; the frames of the two kernel programs are the generated ones, and the reference's
  is its generated run with the result dropped.
-/
import proofs.«164240_j33741263077663_2_alg».proof.Defs
import proofs.«164240_j33741263077663_2_alg».proof.Proof.Gen.Kernel
import proofs.«164240_j33741263077663_2_alg».proof.Proof.Gen.Kernel.Skeleton
import proofs.«164240_j33741263077663_2_alg».proof.Proof.Gen.Kernel.Launch
import proofs.«164240_j33741263077663_2_alg».proof.Proof.Gen.Kernel.Points
import proofs.«164240_j33741263077663_2_alg».proof.Proof.Gen.Kernel.Frame
import proofs.«164240_j33741263077663_2_alg».proof.Proof.Gen.KernelIdeal
import proofs.«164240_j33741263077663_2_alg».proof.Proof.Gen.KernelIdeal.Skeleton
import proofs.«164240_j33741263077663_2_alg».proof.Proof.Gen.KernelIdeal.Launch
import proofs.«164240_j33741263077663_2_alg».proof.Proof.Gen.KernelIdeal.Points
import proofs.«164240_j33741263077663_2_alg».proof.Proof.Gen.KernelIdeal.Frame
import proofs.«164240_j33741263077663_2_alg».proof.Proof.Gen.ReferenceIdeal
import proofs.«164240_j33741263077663_2_alg».proof.Proof.Gen.Pre_finite_inputs
import proofs.«164240_j33741263077663_2_alg».proof.Proof.Gen.KernelIdeal.Value
import proofs.«164240_j33741263077663_2_alg».proof.Proof.Gen.ReferenceIdeal.Run
import proofs.«164240_j33741263077663_2_alg».proof.Proof.Gen.ReferenceIdeal.Read
import proofs.«164240_j33741263077663_2_alg».proof.Proof.KernelHost
import proofs.«164240_j33741263077663_2_alg».proof.Proof.ReferenceRows
import Idealize.ShloMosaic.Adequacy
import Idealize.ShloMosaic.Init

noncomputable section

namespace Cert.Proof

open Idealize.ShloMosaic Idealize.ShloMosaic.TcCoe Idealize.SL.Sem

/-! ## The two programs gather the same rows -/

/-- The reference's gather of a table at an index vector is the kernel program's: the same normalisation of the
    indices, the same column, the same gather of whole rows. -/
theorem gather_agree (tbl : FVec Ideal Cert.KernelIdeal.S100000x128 .f32) (x : Cert.KernelIdeal.S800000.Idx → BitVec 32) :
    Cert.ReferenceIdeal.Read.val_main_v6 (F := Ideal) tbl x = Cert.KernelIdeal.Entry.gathered tbl x
    ∧ Cert.ReferenceIdeal.Read.val_main_v13 (F := Ideal) tbl x = Cert.KernelIdeal.Entry.gathered tbl x
    ∧ Cert.ReferenceIdeal.Read.val_main_v21 (F := Ideal) tbl x = Cert.KernelIdeal.Entry.gathered tbl x
    ∧ Cert.ReferenceIdeal.Read.val_main_v28 (F := Ideal) tbl x = Cert.KernelIdeal.Entry.gathered tbl x :=
  ⟨rfl, rfl, rfl, rfl⟩

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the row function's result over the gathers of the arguments (the kernel's run),
    the reference's at its last stage, which is the same function of arguments that agree. -/
theorem algebraic : Cert.algebraic_KernelIdeal_ReferenceIdeal := by
  intro m ρ m' ρ' _ hagree
  refine ⟨fun c => Cert.KernelIdeal.Entry.full m c, Cert.KernelIdeal.Entry.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v72_eq, Cert.ReferenceIdeal.Rows.stage_eq, h0, h1, h2, h3, h4, h5, h6, h7, h8, h9, h10, h11, h12, h13, h14, h15, h16, h17,
    (gather_agree _ _).1, (gather_agree _ _).2.1, (gather_agree _ _).2.2.1, (gather_agree _ _).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
